-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 18
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelEntry.lean ====
/-
  The buffer contents the kernel region finds: the launch memory after the host operations that precede the region
  (the row norms, the division by norm plus epsilon, the rounding of the table to bf16, and the two reshapes of the
  label vector into a column and a row), as a valuation and read at a TensorCore reference.
-/
import proofs.«169116_j80736795230438_1_alg».proof.Proof.Gen.Kernel.Launch
import proofs.«169116_j80736795230438_1_alg».proof.Proof.Gen.Kernel.Points
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core `c`'s TensorCore buffer contents when the region is entered, as a valuation: the launch memory after the two
    stretches of host operations before the region. -/
abbrev V0 (c : Dev nD) : Valuation τ sig (Elt F) :=
  StableHlo.after (List.flatten [hostOps0, hostOps0_1]) (fun b => m (c, b))

/-- The same read at a TensorCore reference. -/
abbrev V (c : Dev nD) (b : Ref sig .tc) : Buf (Elt F) ((c : Thread nD τ).loc b) := V0 m c (Proc.devRef .tc b)

end Cert.Kernel.Hand

end
-- ==== Proof.KernelRuns.lean ====
/-
  What the three control cases of the kernel body share.

  The grid is 8 row blocks by 8 column blocks, visited row block by row block; point `t` is row block `t / 8`,
  column block `t % 8`.  The body resets its two running extrema (a column of minima and a column of maxima, one
  entry per row of the row block) at the first column block, folds the tile's row minima and row maxima into them
  at every column block, and writes the row block's losses out only at the last column block.  So a point is in one
  of three cases: first column block (reset, no output), a middle one (neither), the last (output).  Here: each
  input window's block at a point, read off the array as the region finds it; the two branch conditions in closed
  form over the grid; where the output window is idle; and the memrefs the body is called with.
-/
import proofs.«169116_j80736795230438_1_alg».proof.Proof.KernelEntry
import proofs.«169116_j80736795230438_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reset's condition: the column-block coordinate is zero. -/
abbrev condFirst (i : grid0.Coords) : Prop := (Scalar.cmpi .ne (Scalar.extui (Scalar.cmpi .eq (BitVec.ofNat 32 (i 1).val) 0#32)) 0#32) = 1#1
/-- It holds at the points whose column block is the first. -/
theorem hcondFirst : ∀ t : Fin cfg0.N, condFirst (grid0.coords t) ↔ t.val % 8 = 0 :=
  (by decide +kernel : ∀ t : Fin grid0.N, condFirst (grid0.coords t) ↔ t.val % 8 = 0)

/-- The output's condition: the column-block coordinate is the last. -/
abbrev condLast (i : grid0.Coords) : Prop := k0_cond2 i = 1#1
/-- It holds at the points whose column block is the last. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Where the column block is not the last the output window is idle: the body stores nothing into it, -/
theorem idle4 : ∀ t : Fin cfg0.N, ¬condLast (grid0.coords t) → cfg0.idle 4 (grid0.coords t) = true := by decide +kernel
/-- and the pipeline does not write its block back. -/
theorem noFlush4 : ∀ t : Fin cfg0.N, ¬condLast (grid0.coords t) → (cfg0.win 4).flush t = false := by decide +kernel
/-- At the last column block it is live. -/
theorem live4 : ∀ t : Fin cfg0.N, condLast (grid0.coords t) → cfg0.idle 4 (grid0.coords t) = false := by decide +kernel

/-! ## The memrefs the body is called with -/

/-- One staging buffer of the output window, through which its contents are stated. -/
abbrev VO : View sig .tc .vmem S1024x1 .f32 := (Memref.whole cc0_stg4_0 : Memref sig .tc .vmem S1024x1 .f32).view
abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The two scratch operands: the running minima and the running maxima. -/
abbrev scMin : Memref sig .tc .vmem S1024x1 .f32 := Memref.whole cc0_scratch0
abbrev scMax : Memref sig .tc .vmem S1024x1 .f32 := Memref.whole cc0_scratch1
abbrev VSmin : View sig .tc .vmem S1024x1 .f32 := scMin.view
abbrev VSmax : View sig .tc .vmem S1024x1 .f32 := scMax.view

/-- The invariant the launch hands the region: the two scratch buffers at some contents, and the generator register. -/
theorem PhiA0_eq (c : Dev nD) :
    (Pipeline.ΦA spec0 c : sProp 𝕄)
      = iprop(iprop((∃ d, owns (c : Thread nD τ) scMin fullShare d) ∗ (∃ d, owns (c : Thread nD τ) scMax fullShare d)) ∗ (∃ r, prngReg c r)) := by
  unfold Pipeline.ΦA; rw [scopedRest0_eq]; simp only [scMin, scMax, owns_whole]; try rfl

end Cert.Kernel.Hand

end
-- ==== Proof.KernelRunA.lean ====
/-
  The body at a point whose column block is the first: the two running columns are reset to +inf and -inf before the tile's row extrema are folded in; nothing is stored into the output's buffer, which is handed back untouched.
-/
import proofs.«169116_j80736795230438_1_alg».proof.Proof.KernelRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the two scratch buffers in this case
    (last first), with the proof that on whole memrefs — the four inputs at their blocks — the body runs to the
    continuation holding the inputs as they were and each buffer it stored into with its pieces written: the printed
    function is its skeleton of loads and stores over named payloads, which the symbolic executor runs, each
    conditional decided by the case's hypotheses; the pieces are the witness that run finds. -/
noncomputable def kernelRunA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .bf16) (x1 : Vec F S1024x128 .bf16) (x2 : Vec F S1024x1 .i32) (x3 : Vec F S1x1024 .i32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__triple_loss_kernel i arg2 harg2 arg3 harg3 arg4 harg4 arg5 harg5 arg6 harg6 arg7 harg7 arg8 harg8) K } := by
  refine ⟨[], ?_, ?_, fun xi4 E K => ?run⟩
  case run =>
    simp only [cc0__triple_loss_kernel_eq_skeleton]; unfold cc0__triple_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.KernelRunB.lean ====
/-
  The body at a point whose column block is neither the first nor the last: the tile's row extrema are folded into the two running columns, found at what the point before left; nothing is stored into the output's buffer.
-/
import proofs.«169116_j80736795230438_1_alg».proof.Proof.KernelRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the two scratch buffers in this case
    (last first), with the proof that on whole memrefs — the four inputs at their blocks — the body runs to the
    continuation holding the inputs as they were and each buffer it stored into with its pieces written: the printed
    function is its skeleton of loads and stores over named payloads, which the symbolic executor runs, each
    conditional decided by the case's hypotheses; the pieces are the witness that run finds. -/
noncomputable def kernelRunB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .bf16) (x1 : Vec F S1024x128 .bf16) (x2 : Vec F S1024x1 .i32) (x3 : Vec F S1x1024 .i32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__triple_loss_kernel i arg2 harg2 arg3 harg3 arg4 harg4 arg5 harg5 arg6 harg6 arg7 harg7 arg8 harg8) K } := by
  refine ⟨[], ?_, ?_, fun xi4 E K => ?run⟩
  case run =>
    simp only [cc0__triple_loss_kernel_eq_skeleton]; unfold cc0__triple_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.KernelRunC.lean ====
/-
  The body at a point whose column block is the last: the tile's row extrema are folded into the two running columns, and the row block's losses — running maximum plus margin minus running minimum — are stored into the output's buffer.
-/
import proofs.«169116_j80736795230438_1_alg».proof.Proof.KernelRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the two scratch buffers in this case
    (last first), with the proof that on whole memrefs — the four inputs at their blocks — the body runs to the
    continuation holding the inputs as they were and each buffer it stored into with its pieces written: the printed
    function is its skeleton of loads and stores over named payloads, which the symbolic executor runs, each
    conditional decided by the case's hypotheses; the pieces are the witness that run finds. -/
noncomputable def kernelRunC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .bf16) (x1 : Vec F S1024x128 .bf16) (x2 : Vec F S1024x1 .i32) (x3 : Vec F S1x1024 .i32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__triple_loss_kernel i arg2 harg2 arg3 harg3 arg4 harg4 arg5 harg5 arg6 harg6 arg7 harg7 arg8 harg8) K } := by
  refine ⟨?_, ?_, ?_, fun E K => ?run⟩
  case run =>
    simp only [cc0__triple_loss_kernel_eq_skeleton]; unfold cc0__triple_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    iexists _; iexact HS1

end Cert.Kernel.Hand

end
-- ==== Proof.KernelFrame.lean ====
/-
  The kernel region, point by point.

  After the body at point `t` the two scratch columns hold, for each row of the current row block, the minimum
  (maximum) over the column blocks visited so far in this row block of the tile's masked row minimum (maximum):
  at the first column block the fold starts from +inf (-inf), at a later one from what the point before left.  The
  output's staging buffer is written only at the last column block, with running maximum + margin - running
  minimum.  This module names those contents by recursion on the point (`outsAt`), states the region's invariant
  (the scratch columns at the contents the point before left), assembles the pipeline's proof data, and proves
  the body obligation by cases on the column block.
-/
import proofs.«169116_j80736795230438_1_alg».proof.Proof.KernelRunA
import proofs.«169116_j80736795230438_1_alg».proof.Proof.KernelRunB
import proofs.«169116_j80736795230438_1_alg».proof.Proof.KernelRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point of the grid -/

/-- The body's run at a point whose column block is the first. -/
abbrev runA (c : Dev nD) (t : Fin cfg0.N) (h0 : t.val % 8 = 0) :=
  kernelRunA (F := F) c (grid0.coords t) (ms0 t) (hs0 t) (ms1 t) (hs1 t) (ms2 t) (hs2 t) (ms3 t) (hs3 t) (ms4 t) (hs4 t) scMin (Memref.isWhole_whole _) scMax (Memref.isWhole_whole _)
    ((hcondFirst t).mpr h0) (fun h => by have := (hcondLast t).mp h; omega) (iblk m c 0 t) (iblk m c 1 t) (iblk m c 2 t) (iblk m c 3 t)
/-- The body's run at a point whose column block is neither the first nor the last, the scratch columns found at `xs0`, `xs1`. -/
abbrev runB (c : Dev nD) (t : Fin cfg0.N) (h0 : ¬t.val % 8 = 0) (h1 : ¬t.val % 8 = 7) (xs0 xs1 : Vec F S1024x1 .f32) :=
  kernelRunB (F := F) c (grid0.coords t) (ms0 t) (hs0 t) (ms1 t) (hs1 t) (ms2 t) (hs2 t) (ms3 t) (hs3 t) (ms4 t) (hs4 t) scMin (Memref.isWhole_whole _) scMax (Memref.isWhole_whole _)
    (fun h => h0 ((hcondFirst t).mp h)) (fun h => h1 ((hcondLast t).mp h)) (iblk m c 0 t) (iblk m c 1 t) (iblk m c 2 t) (iblk m c 3 t) xs0 xs1
/-- The body's run at a point whose column block is the last. -/
abbrev runC (c : Dev nD) (t : Fin cfg0.N) (h1 : t.val % 8 = 7) (xs0 xs1 : Vec F S1024x1 .f32) :=
  kernelRunC (F := F) c (grid0.coords t) (ms0 t) (hs0 t) (ms1 t) (hs1 t) (ms2 t) (hs2 t) (ms3 t) (hs3 t) (ms4 t) (hs4 t) scMin (Memref.isWhole_whole _) scMax (Memref.isWhole_whole _)
    (fun h => by have := (hcondFirst t).mp h; omega) ((hcondLast t).mpr h1) (iblk m c 0 t) (iblk m c 1 t) (iblk m c 2 t) (iblk m c 3 t) xs0 xs1

/-- In every case the pieces stored into a scratch column tile it, so they cover it. -/
theorem scoverA_min (c : Dev nD) (t : Fin cfg0.N) (h0 : t.val % 8 = 0) (y : S1024x1.Idx) :
    ∃ pc ∈ (runA m c t h0).2.1, y ∈ pc.1.set :=
  View.cover_of_tiledL (runA m c t h0).2.1 S1024x1.size (by sl_kernel_rfl) y
theorem scoverA_max (c : Dev nD) (t : Fin cfg0.N) (h0 : t.val % 8 = 0) (y : S1024x1.Idx) :
    ∃ pc ∈ (runA m c t h0).2.2.1, y ∈ pc.1.set :=
  View.cover_of_tiledL (runA m c t h0).2.2.1 S1024x1.size (by sl_kernel_rfl) y
theorem scoverB_min (c : Dev nD) (t : Fin cfg0.N) (h0 : ¬t.val % 8 = 0) (h1 : ¬t.val % 8 = 7) (xs0 xs1 : Vec F S1024x1 .f32) (y : S1024x1.Idx) :
    ∃ pc ∈ (runB m c t h0 h1 xs0 xs1).2.1, y ∈ pc.1.set :=
  View.cover_of_tiledL (runB m c t h0 h1 xs0 xs1).2.1 S1024x1.size (by sl_kernel_rfl) y
theorem scoverB_max (c : Dev nD) (t : Fin cfg0.N) (h0 : ¬t.val % 8 = 0) (h1 : ¬t.val % 8 = 7) (xs0 xs1 : Vec F S1024x1 .f32) (y : S1024x1.Idx) :
    ∃ pc ∈ (runB m c t h0 h1 xs0 xs1).2.2.1, y ∈ pc.1.set :=
  View.cover_of_tiledL (runB m c t h0 h1 xs0 xs1).2.2.1 S1024x1.size (by sl_kernel_rfl) y
theorem scoverC_min (c : Dev nD) (t : Fin cfg0.N) (h1 : t.val % 8 = 7) (xs0 xs1 : Vec F S1024x1 .f32) (y : S1024x1.Idx) :
    ∃ pc ∈ (runC m c t h1 xs0 xs1).2.1, y ∈ pc.1.set :=
  View.cover_of_tiledL (runC m c t h1 xs0 xs1).2.1 S1024x1.size (by sl_kernel_rfl) y
theorem scoverC_max (c : Dev nD) (t : Fin cfg0.N) (h1 : t.val % 8 = 7) (xs0 xs1 : Vec F S1024x1 .f32) (y : S1024x1.Idx) :
    ∃ pc ∈ (runC m c t h1 xs0 xs1).2.2.1, y ∈ pc.1.set :=
  View.cover_of_tiledL (runC m c t h1 xs0 xs1).2.2.1 S1024x1.size (by sl_kernel_rfl) y
/-- At the last column block the one store into the output's buffer covers it. -/
theorem coverC_out (c : Dev nD) (t : Fin cfg0.N) (h1 : t.val % 8 = 7) (xs0 xs1 : Vec F S1024x1 .f32) (y : S1024x1.Idx) :
    ∃ pc ∈ (runC m c t h1 xs0 xs1).1, y ∈ pc.1.set :=
  View.cover_of_tiledL (runC m c t h1 xs0 xs1).1 S1024x1.size (by sl_kernel_rfl) y

/-- What a case leaves in a buffer: its pieces read back. -/
def minA (c : Dev nD) (t : Fin cfg0.N) (h0 : t.val % 8 = 0) : Vec F S1024x1 .f32 :=
  VSmin.read (Elt F) (VSmin.writes (Elt F) VSmin.junk (runA m c t h0).2.1)
def maxA (c : Dev nD) (t : Fin cfg0.N) (h0 : t.val % 8 = 0) : Vec F S1024x1 .f32 :=
  VSmax.read (Elt F) (VSmax.writes (Elt F) VSmax.junk (runA m c t h0).2.2.1)
def minB (c : Dev nD) (t : Fin cfg0.N) (h0 : ¬t.val % 8 = 0) (h1 : ¬t.val % 8 = 7) (xs0 xs1 : Vec F S1024x1 .f32) : Vec F S1024x1 .f32 :=
  VSmin.read (Elt F) (VSmin.writes (Elt F) VSmin.junk (runB m c t h0 h1 xs0 xs1).2.1)
def maxB (c : Dev nD) (t : Fin cfg0.N) (h0 : ¬t.val % 8 = 0) (h1 : ¬t.val % 8 = 7) (xs0 xs1 : Vec F S1024x1 .f32) : Vec F S1024x1 .f32 :=
  VSmax.read (Elt F) (VSmax.writes (Elt F) VSmax.junk (runB m c t h0 h1 xs0 xs1).2.2.1)
def minC (c : Dev nD) (t : Fin cfg0.N) (h1 : t.val % 8 = 7) (xs0 xs1 : Vec F S1024x1 .f32) : Vec F S1024x1 .f32 :=
  VSmin.read (Elt F) (VSmin.writes (Elt F) VSmin.junk (runC m c t h1 xs0 xs1).2.1)
def maxC (c : Dev nD) (t : Fin cfg0.N) (h1 : t.val % 8 = 7) (xs0 xs1 : Vec F S1024x1 .f32) : Vec F S1024x1 .f32 :=
  VSmax.read (Elt F) (VSmax.writes (Elt F) VSmax.junk (runC m c t h1 xs0 xs1).2.2.1)
def outC (c : Dev nD) (t : Fin cfg0.N) (h1 : t.val % 8 = 7) (xs0 xs1 : Vec F S1024x1 .f32) : Vec F S1024x1 .f32 :=
  VO.read (Elt F) (VO.writes (Elt F) VO.junk (runC m c t h1 xs0 xs1).1)
/-- Where the output window is idle nothing consults its contents: a placeholder. -/
def outIdle : Vec F S1024x1 .f32 := VO.read (Elt F) VO.junk

/-! ## What the buffers hold after each point -/

/-- After the body at position `n`: the output's staging buffer, the running minima, the running maxima. -/
def outsAt (c : Dev nD) : (n : ℕ) → n < cfg0.N → Vec F S1024x1 .f32 × Vec F S1024x1 .f32 × Vec F S1024x1 .f32
  | 0, hn => (outIdle, minA m c ⟨0, hn⟩ (Nat.zero_mod _), maxA m c ⟨0, hn⟩ (Nat.zero_mod _))
  | n + 1, hn =>
    if h0 : (n + 1) % 8 = 0 then
      (outIdle, minA m c ⟨n + 1, hn⟩ h0, maxA m c ⟨n + 1, hn⟩ h0)
    else if h1 : (n + 1) % 8 = 7 then
      (outC m c ⟨n + 1, hn⟩ h1 (outsAt c n (Nat.lt_of_succ_lt hn)).2.1 (outsAt c n (Nat.lt_of_succ_lt hn)).2.2,
       minC m c ⟨n + 1, hn⟩ h1 (outsAt c n (Nat.lt_of_succ_lt hn)).2.1 (outsAt c n (Nat.lt_of_succ_lt hn)).2.2,
       maxC m c ⟨n + 1, hn⟩ h1 (outsAt c n (Nat.lt_of_succ_lt hn)).2.1 (outsAt c n (Nat.lt_of_succ_lt hn)).2.2)
    else
      (outIdle,
       minB m c ⟨n + 1, hn⟩ h0 h1 (outsAt c n (Nat.lt_of_succ_lt hn)).2.1 (outsAt c n (Nat.lt_of_succ_lt hn)).2.2,
       maxB m c ⟨n + 1, hn⟩ h0 h1 (outsAt c n (Nat.lt_of_succ_lt hn)).2.1 (outsAt c n (Nat.lt_of_succ_lt hn)).2.2)

/-- What the point before `t` left (for a point that is not the first). -/
abbrev prevAt (c : Dev nD) (t : Fin cfg0.N) := outsAt m c (t.val - 1) (Nat.lt_of_le_of_lt (Nat.sub_le _ _) t.isLt)

theorem outsAt_A (c : Dev nD) (t : Fin cfg0.N) (h0 : t.val % 8 = 0) :
    outsAt m c t.val t.isLt = (outIdle, minA m c t h0, maxA m c t h0) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = (outIdle, minB m c t h0 h1 (prevAt m c t).2.1 (prevAt m c t).2.2, maxB m c t h0 h1 (prevAt m c t).2.1 (prevAt m c t).2.2) := by
  obtain ⟨n, hn⟩ := t
  cases n with
  | zero => exact absurd (Nat.zero_mod _) h0
  | succ n => exact (dif_neg h0).trans ((dif_neg h1).trans rfl)

theorem outsAt_C (c : Dev nD) (t : Fin cfg0.N) (h1 : t.val % 8 = 7) :
    outsAt m c t.val t.isLt = (outC m c t h1 (prevAt m c t).2.1 (prevAt m c t).2.2, minC m c t h1 (prevAt m c t).2.1 (prevAt m c t).2.2, maxC m c t h1 (prevAt m c t).2.1 (prevAt m c t).2.2) := by
  obtain ⟨n, hn⟩ := t
  cases n with
  | zero => exact absurd h1 (by simp)
  | succ n =>
    have h1' : (n + 1) % 8 = 7 := h1
    exact (dif_neg (by omega)).trans ((dif_pos h1').trans rfl)

/-! ## The region's invariant -/

/-- Before position `n`: at the start what the launch hands the region (the scratch columns at anything);
    afterwards the two scratch columns at what the point before left, and the generator register at some state. -/
def PhiS (c : Dev nD) : (n : ℕ) → n ≤ cfg0.N → sProp 𝕄
  | 0, _ => Pipeline.ΦA spec0 c
  | n + 1, hn => iprop(iprop(owns (c : Thread nD τ) scMin fullShare ((outsAt m c n hn).2.1) ∗ owns (c : Thread nD τ) scMax fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMin fullShare ((outsAt m c n hn).2.1) ∗ owns (c : Thread nD τ) scMax fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scMin fullShare ((outsAt m c (n - 1) (by omega)).2.1) ∗ owns (c : Thread nD τ) scMax fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block and the output's at
    `outsAt`; the invariant `PhiS`; the table read through two windows held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q_eq (c : Dev nD) : (dats m 0 c).q 0 = fullShare.left ∧ (dats m 0 c).q 1 = fullShare.right ∧ (dats m 0 c).q 2 = fullShare ∧ (dats m 0 c).q 3 = fullShare :=
  ⟨rfl, rfl, rfl, rfl⟩

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]
theorem leaves_in3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' memrefs hold their blocks; the column block says which case the point is in;
    the invariant hands the body the scratch columns at what the point before left (at anything at the very first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · have hnl : ¬condLast (grid0.coords t) := fun h => by have := (hcondLast t).mp h; omega
    rw [Dat.leavesExact_idle (dats m 0 c) 4 t (idle4 t hnl) (noFlush4 t hnl)]
    rw [outsAt_A m c t h0]
    unfold minA maxA; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((runA m c t h0).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_min m c t h0)
          · unfold owns; iexists _; isplitr
            swap; · iexact HS1
            ipureintro; exact View.read_writes_of_cover _ _ _ _ _ (scoverA_max m c t h0)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runA m c t h0).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_min m c t h0)
          · unfold owns; iexists _; isplitr
            swap; · iexact HS1
            ipureintro; exact View.read_writes_of_cover _ _ _ _ _ (scoverA_max m c t h0)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms4 t) fullShare ((dats m 0 c).after 4 t) from by
        unfold Dat.leavesExact; rw [live4 t ((hcondLast t).mpr h1)], after4]
      rw [outsAt_C m c t h1]
      unfold outC minC maxC; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runC m c t h1 (prevAt m c t).2.1 (prevAt m c t).2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC_min m c t h1 _ _)
          · unfold owns; iexists _; isplitr
            swap; · iexact HS1
            ipureintro; exact View.read_writes_of_cover _ _ _ _ _ (scoverC_max m c t h1 _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_out m c t h1 _ _)
    · have hnl : ¬condLast (grid0.coords t) := fun h => h1 ((hcondLast t).mp h)
      rw [Dat.leavesExact_idle (dats m 0 c) 4 t (idle4 t hnl) (noFlush4 t hnl)]
      rw [outsAt_B m c t h0 h1]
      unfold minB maxB; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runB m c t h0 h1 (prevAt m c t).2.1 (prevAt m c t).2.2).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_min m c t h0 h1 _ _)
          · unfold owns; iexists _; isplitr
            swap; · iexact HS1
            ipureintro; exact View.read_writes_of_cover _ _ _ _ _ (scoverB_max m c t h0 h1 _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the scratch columns' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

end Cert.Kernel.Hand

end
-- ==== Proof.KernelLaunch.lean ====
/-
  The launch of the kernel region: from the kernel body's obligation to the run of the whole program.

  The region's first two input windows read one array, so the array's full share is split between them, a half
  each; the other windows hold their arrays whole.  Around the region the program runs host operations: those
  before it make the arrays the region finds, those after it sum the region's output into the program's result.
-/
import proofs.«169116_j80736795230438_1_alg».proof.Proof.KernelEntry

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The program around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it: it reduces to
    the region continued by the later operations, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The windows' arrays, one by one -/

variable {m} in
/-- The pipeline's arrays at the shares of the proof data: the shared array a half for each of its two windows, the
    other three whole. -/
theorem arrays_chain {c : Dev nD} (dat : Dat τ (Elt F) Unit ℕ (UR sig nD τ) ℕ cfg0 c)
    (hq : dat.q 0 = fullShare.left ∧ dat.q 1 = fullShare.right ∧ dat.q 2 = fullShare ∧ dat.q 3 = fullShare)
    (G : (w : Fin cfg0.W) → Buf (Elt F) ((cfg0.win w).arr.view.loc (c.tc : Thread nD τ))) :
    (dat.arrays G : sProp 𝕄)
      = iprop((((c.tc : Thread nD τ).loc main_v5) ↦{fullShare.left} G 0) ∗ (((c.tc : Thread nD τ).loc main_v5) ↦{fullShare.right} G 1)
          ∗ (((c.tc : Thread nD τ).loc main_v6) ↦{fullShare} G 2) ∗ (((c.tc : Thread nD τ).loc main_v7) ↦{fullShare} G 3)
          ∗ (((c.tc : Thread nD τ).loc main_v8) ↦{fullShare} G 4)) := by
  obtain ⟨h0, h1, h2, h3⟩ := hq
  unfold Dat.arrays
  rw [bigSep_W0, (arr_whole0 0).set_eq_univ, (arr_whole0 2).set_eq_univ, (arr_whole0 3).set_eq_univ, (arr_whole0 4).set_eq_univ]
  unfold Dat.share
  rw [if_neg (by decide), if_neg (by decide), if_neg (by decide), if_neg (by decide), if_pos (by decide), h0, h1, h2, h3]

variable {m} in
/-- At the region's entry the buffers behind the arrays, each whole, make the pipeline's arrays: the shared array's
    full share is dealt a half to each of its two windows. -/
theorem arrays_entry {c : Dev nD} (dat : Dat τ (Elt F) Unit ℕ (UR sig nD τ) ℕ cfg0 c)
    (hA : ∀ w, dat.A w = V m c (Pipeline.arrRef spec0 w))
    (hq : dat.q 0 = fullShare.left ∧ dat.q 1 = fullShare.right ∧ dat.q 2 = fullShare ∧ dat.q 3 = fullShare) :
    (Pipeline.arrBufs spec0 c (V m c) : sProp 𝕄) ⊢ dat.arrays (dat.arrAt · 0) := by
  have e0 : dat.arrAt 0 0 = V m c main_v5 := hA 0
  have e1 : dat.arrAt 1 0 = V m c main_v5 := hA 1
  have e2 : dat.arrAt 2 0 = V m c main_v6 := hA 2
  have e3 : dat.arrAt 3 0 = V m c main_v7 := hA 3
  have e4 : dat.arrAt 4 0 = V m c main_v8 := hA 4
  have hL : (Pipeline.arrBufs spec0 c (V m c) : sProp 𝕄)
      = iprop((((c.tc : Thread nD τ).loc main_v5) ↦{fullShare} V m c main_v5) ∗ (((c.tc : Thread nD τ).loc main_v6) ↦{fullShare} V m c main_v6)
          ∗ (((c.tc : Thread nD τ).loc main_v7) ↦{fullShare} V m c main_v7) ∗ (((c.tc : Thread nD τ).loc main_v8) ↦{fullShare} V m c main_v8)) :=
    bigSep_eq_bigSepL_of_eq [main_v5, main_v6, main_v7, main_v8] (by decide) (by decide) _
  rw [arrays_chain dat hq, hL]
  beta_reduce
  rw [e0, e1, e2, e3, e4]
  iintro ⟨H5, H6, H7, H8⟩
  ihave H5' := (pointsTo_share (PosShare.mem_left_op_right fullShare)).1 $$ H5
  icases H5' with ⟨Hl, Hr⟩
  isplitl [Hl]; · iexact Hl
  isplitl [Hr]; · iexact Hr
  isplitl [H6]; · iexact H6
  isplitl [H7]; · iexact H7
  iexact H8

/-! ## The host operations after the region -/

/-- The windows but the first: their arrays are pairwise distinct, and they are all the arrays. -/
abbrev winsD : Fin 4 → Pipeline.WinSpec sig grid0.rank := fun w => spec0 w.succ
theorem winsD_inj : Function.Injective (Pipeline.arrRef winsD) := by decide
theorem winsD_unscoped : ∀ w, (Pipeline.arrRef winsD w).isScoped = false := by decide
theorem winsD_image : Finset.univ.image (Pipeline.arrRef winsD) = Finset.univ.image (Pipeline.arrRef spec0) := by decide

/-- Four windows conjoined one by one. -/
theorem bigSep_four {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- The buffers that bypass the region are the same for the four windows as for the five. -/
theorem rest_winsD (c : Dev nD) (X : (b : Ref sig .tc) → Buf (Elt F) ((c.tc : Thread nD τ).loc b)) :
    (Pipeline.unscopedRestP Pipeline.Prefetch.none winsD c X : sProp 𝕄) = Pipeline.unscopedRest spec0 c X := by
  rw [Pipeline.unscopedRestP_none]; unfold Pipeline.unscopedRest; rw [winsD_image]

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none winsD := by
  rw [Pipeline.tailRefs_none winsD winsD_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline. -/
theorem sfx_keeps : ∀ ops ∈ ([hostOps1] : List (List (HloOp τ sig (Elt F)))), ∀ op ∈ ops,
    ∀ w, Proc.devRef .tc (Pipeline.arrRef winsD w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The four windows' arrays when the region is left. -/
abbrev arrsOut {c : Dev nD} (dat : Dat τ (Elt F) Unit ℕ (UR sig nD τ) ℕ cfg0 c) :
    (w : Fin 4) → Buf (Elt F) ((winsD w).arr.view.loc (c.tc : Thread nD τ)) := fun w => dat.arrAt w.succ cfg0.N

/-- What each unscoped buffer holds at the end: the operations after the region, run from the contents the region leaves
    (its arrays as the write-backs left them, every other buffer as the region found it). -/
def afterV (c : Dev nD) (dat : Dat τ (Elt F) Unit ℕ (UR sig nD τ) ℕ cfg0 c) (b : Ref sig .tc) :
    Buf (Elt F) ((c.tc : Thread nD τ).loc b) :=
  StableHlo.after (List.flatten [hostOps1]) (Pipeline.withArrays winsD c (V0 m c) (arrsOut dat)) (Proc.devRef .tc b)

/-- The program's result is the sum of the region's output. -/
theorem afterV_result (c : Dev nD) (dat : Dat τ (Elt F) Unit ℕ (UR sig nD τ) ℕ cfg0 c) :
    afterV m c dat main_v9
      = Host.reduceAdd (F := F) (dat.arrAt 4 cfg0.N) (constant S_ .f32 0x00000000#32) reducesTo_S8192x1_S_d0_1 h_S_ := by
  have h8 : Pipeline.withArrays winsD c (V0 m c) (arrsOut dat) (Proc.devRef .tc main_v8) = dat.arrAt 4 cfg0.N :=
    Pipeline.withArrays_arr winsD winsD_inj c (V0 m c) (arrsOut dat) 3
  unfold afterV
  simp only [hostOps1, List.flatten_cons, List.flatten_nil, List.append_nil]
  after_results
  rw [h8]

/-- No host operation before the region writes an argument. -/
theorem V_arg0 (c : Dev nD) : V m c main_arg0 = m ((c.tc : Thread nD τ).loc main_arg0) := by
  dsimp only [V, V0]
  simp only [hostOps0, hostOps0_1, List.flatten_cons, List.flatten_nil, List.append_nil, List.cons_append, List.nil_append]
  after_results
theorem V_arg1 (c : Dev nD) : V m c main_arg1 = m ((c.tc : Thread nD τ).loc main_arg1) := by
  dsimp only [V, V0]
  simp only [hostOps0, hostOps0_1, List.flatten_cons, List.flatten_nil, List.append_nil, List.cons_append, List.nil_append]
  after_results

/-- Nor does the region or any operation after it: the arguments end as they were at the launch. -/
theorem afterV_arg0 (c : Dev nD) (dat : Dat τ (Elt F) Unit ℕ (UR sig nD τ) ℕ cfg0 c) :
    afterV m c dat main_arg0 = m ((c.tc : Thread nD τ).loc main_arg0) := by
  have h : Pipeline.withArrays winsD c (V0 m c) (arrsOut dat) (Proc.devRef .tc main_arg0) = V m c main_arg0 :=
    Pipeline.withArrays_of_ne winsD c (V0 m c) (arrsOut dat) main_arg0 (by decide)
  unfold afterV
  simp only [hostOps1, List.flatten_cons, List.flatten_nil, List.append_nil]
  after_results
  rw [h, V_arg0]
theorem afterV_arg1 (c : Dev nD) (dat : Dat τ (Elt F) Unit ℕ (UR sig nD τ) ℕ cfg0 c) :
    afterV m c dat main_arg1 = m ((c.tc : Thread nD τ).loc main_arg1) := by
  have h : Pipeline.withArrays winsD c (V0 m c) (arrsOut dat) (Proc.devRef .tc main_arg1) = V m c main_arg1 :=
    Pipeline.withArrays_of_ne winsD c (V0 m c) (arrsOut dat) main_arg1 (by decide)
  unfold afterV
  simp only [hostOps1, List.flatten_cons, List.flatten_nil, List.append_nil]
  after_results
  rw [h, V_arg1]

variable {m} in
/-- THE OPERATIONS AFTER THE REGION, run from the region's exit: the shared array's two halves are joined, the operations
    run within the arrays and the bypassing buffers, and the array is dealt again. -/
theorem tail_run {c : Dev nD} (dat : Dat τ (Elt F) Unit ℕ (UR sig nD τ) ℕ cfg0 c)
    (hA : ∀ w, dat.A w = V m c (Pipeline.arrRef spec0 w))
    (hq : dat.q 0 = fullShare.left ∧ dat.q 1 = fullShare.right ∧ dat.q 2 = fullShare ∧ dat.q 3 = fullShare)
    (𝒱₀ : Variants) (Q' : PUnit → sProp 𝕄) :
    iprop((iprop(dat.arrays (dat.arrAt · cfg0.N) ∗ Pipeline.unscopedRest spec0 c (afterV m c dat)) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  have e01 : dat.arrAt 0 cfg0.N = dat.arrAt 1 cfg0.N :=
    ((dat.arrAt_in 0 rfl _).trans (hA 0)).trans ((dat.arrAt_in 1 rfl _).trans (hA 1)).symm
  have h := Pipeline.tail_seqs (Ix := Unit) (Name := ℕ) (U := UR sig nD τ) (Lvl := ℕ) (fun q => (cfgs q).toPCfg (Val := Elt F)) defs₀ 𝒱₀
    Pipeline.Prefetch.none winsD winsD_inj c (V0 m c) (arrsOut dat) [hostOps1] sfx_sub sfx_fresh sfx_keeps Q'
  unfold Pipeline.arrPts at h
  rw [bigSep_four, rest_winsD, rest_winsD] at h
  refine BIBase.Entails.trans ?_ h
  rw [arrays_chain dat hq]
  beta_reduce
  rw [e01]
  iintro ⟨Hk, Hb, ⟨H0, H1, H2, H3, H4⟩, HZ⟩
  isplitl [Hk]
  · iintro ⟨⟨A1, A2, A3, A4⟩, HZ'⟩
    iapply Hk
    ihave A1' := (pointsTo_share (PosShare.mem_left_op_right fullShare)).1 $$ A1
    icases A1' with ⟨Al, Ar⟩
    isplitr [HZ']
    · isplitl [Al]; · iexact Al
      isplitl [Ar]; · iexact Ar
      isplitl [A2]; · iexact A2
      isplitl [A3]; · iexact A3
      iexact A4
    · iexact HZ'
  · isplitl [Hb]; · iexact Hb
    isplitr [HZ]
    · isplitl [H0 H1]
      · iapply (pointsTo_share (PosShare.mem_left_op_right fullShare)).2
        isplitl [H0]; · iexact H0
        iexact H1
      isplitl [H2]; · iexact H2
      isplitl [H3]; · iexact H3
      iexact H4
    · iexact HZ

/-! ## The run -/

-- the launch theorem's implicit arguments are found by unifying its conclusion with this one, which takes unfolding plain
-- definitions in a metavariable's type
set_option backward.isDefEq.respectTransparency.types false in
/-- THE RUN OF THE WHOLE PROGRAM from the kernel body's obligation: every weakly fair execution terminates without a
    fault; the program's result is the sum of the region's output as the proof data computes it, and the two
    arguments end as they were at the launch. -/
theorem run_of_body (m : (ℓ : Loc nD τ sig) → Buf (Elt F) ℓ) (ρ : Dev nD → PrngReg)
    (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q 0 = fullShare.left ∧ (dats 0 c).q 1 = fullShare.right ∧ (dats 0 c).q 2 = fullShare ∧ (dats 0 c).q 3 = fullShare)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v9)
          = Host.reduceAdd (F := F) ((dats 0 c).arrAt 4 cfg0.N) (constant S_ .f32 0x00000000#32) reducesTo_S8192x1_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_entry (dats 0 c) (hA c) (hq c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterV m c (dats 0 c)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run (dats 0 c) (hA c) (hq c) Variants.none Q')
    (QY := fun c s => ∀ b ∈ Pipeline.restRefs sig spec0, s.mem ((c.tc : Thread nD τ).loc b) = afterV m c (dats 0 c) b)
    (hY := fun c s' => by
      iintro ⟨-, HU, HSI⟩
      unfold Pipeline.unscopedRest
      imodintro
      iapply (pointsTo_read_all (Pipeline.restRefs sig spec0) (fun b => (c.tc : Thread nD τ).loc b) (afterV m c (dats 0 c)) s')
      isplitl [HU] <;> iassumption)
    (hQ := fun s h c =>
      ⟨((h c).2.2 main_v9 (Pipeline.mem_restRefs_of main_v9 rfl (by decide))).trans (afterV_result m c (dats 0 c)),
       ((h c).2.2 main_arg0 (Pipeline.mem_restRefs_of main_arg0 rfl (by decide))).trans (afterV_arg0 m c (dats 0 c)),
       ((h c).2.2 main_arg1 (Pipeline.mem_restRefs_of main_arg1 rfl (by decide))).trans (afterV_arg1 m c (dats 0 c))⟩)

end Cert.Kernel.Hand

end
-- ==== Proof.KernelIdealEntry.lean ====
/-
  The buffer contents the kernel region finds: the launch memory after the host operations that precede the region
  (the row norms, the division by norm plus epsilon, the rounding of the table to bf16, and the two reshapes of the
  label vector into a column and a row), as a valuation and read at a TensorCore reference.
-/
import proofs.«169116_j80736795230438_1_alg».proof.Proof.Gen.KernelIdeal.Launch
import proofs.«169116_j80736795230438_1_alg».proof.Proof.Gen.KernelIdeal.Points
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core `c`'s TensorCore buffer contents when the region is entered, as a valuation: the launch memory after the two
    stretches of host operations before the region. -/
abbrev V0 (c : Dev nD) : Valuation τ sig (Elt F) :=
  StableHlo.after (List.flatten [hostOps0, hostOps0_1]) (fun b => m (c, b))

/-- The same read at a TensorCore reference. -/
abbrev V (c : Dev nD) (b : Ref sig .tc) : Buf (Elt F) ((c : Thread nD τ).loc b) := V0 m c (Proc.devRef .tc b)

end Cert.KernelIdeal.Hand

end
-- ==== Proof.KernelIdealRuns.lean ====
/-
  What the three control cases of the kernel body share.

  The grid is 8 row blocks by 8 column blocks, visited row block by row block; point `t` is row block `t / 8`,
  column block `t % 8`.  The body resets its two running extrema (a column of minima and a column of maxima, one
  entry per row of the row block) at the first column block, folds the tile's row minima and row maxima into them
  at every column block, and writes the row block's losses out only at the last column block.  So a point is in one
  of three cases: first column block (reset, no output), a middle one (neither), the last (output).  Here: each
  input window's block at a point, read off the array as the region finds it; the two branch conditions in closed
  form over the grid; where the output window is idle; and the memrefs the body is called with.
-/
import proofs.«169116_j80736795230438_1_alg».proof.Proof.KernelIdealEntry
import proofs.«169116_j80736795230438_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reset's condition: the column-block coordinate is zero. -/
abbrev condFirst (i : grid0.Coords) : Prop := (Scalar.cmpi .ne (Scalar.extui (Scalar.cmpi .eq (BitVec.ofNat 32 (i 1).val) 0#32)) 0#32) = 1#1
/-- It holds at the points whose column block is the first. -/
theorem hcondFirst : ∀ t : Fin cfg0.N, condFirst (grid0.coords t) ↔ t.val % 8 = 0 :=
  (by decide +kernel : ∀ t : Fin grid0.N, condFirst (grid0.coords t) ↔ t.val % 8 = 0)

/-- The output's condition: the column-block coordinate is the last. -/
abbrev condLast (i : grid0.Coords) : Prop := k0_cond2 i = 1#1
/-- It holds at the points whose column block is the last. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Where the column block is not the last the output window is idle: the body stores nothing into it, -/
theorem idle4 : ∀ t : Fin cfg0.N, ¬condLast (grid0.coords t) → cfg0.idle 4 (grid0.coords t) = true := by decide +kernel
/-- and the pipeline does not write its block back. -/
theorem noFlush4 : ∀ t : Fin cfg0.N, ¬condLast (grid0.coords t) → (cfg0.win 4).flush t = false := by decide +kernel
/-- At the last column block it is live. -/
theorem live4 : ∀ t : Fin cfg0.N, condLast (grid0.coords t) → cfg0.idle 4 (grid0.coords t) = false := by decide +kernel

/-! ## The memrefs the body is called with -/

/-- One staging buffer of the output window, through which its contents are stated. -/
abbrev VO : View sig .tc .vmem S1024x1 .f32 := (Memref.whole cc0_stg4_0 : Memref sig .tc .vmem S1024x1 .f32).view
abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The two scratch operands: the running minima and the running maxima. -/
abbrev scMin : Memref sig .tc .vmem S1024x1 .f32 := Memref.whole cc0_scratch0
abbrev scMax : Memref sig .tc .vmem S1024x1 .f32 := Memref.whole cc0_scratch1
abbrev VSmin : View sig .tc .vmem S1024x1 .f32 := scMin.view
abbrev VSmax : View sig .tc .vmem S1024x1 .f32 := scMax.view

/-- The invariant the launch hands the region: the two scratch buffers at some contents, and the generator register. -/
theorem PhiA0_eq (c : Dev nD) :
    (Pipeline.ΦA spec0 c : sProp 𝕄)
      = iprop(iprop((∃ d, owns (c : Thread nD τ) scMin fullShare d) ∗ (∃ d, owns (c : Thread nD τ) scMax fullShare d)) ∗ (∃ r, prngReg c r)) := by
  unfold Pipeline.ΦA; rw [scopedRest0_eq]; simp only [scMin, scMax, owns_whole]; try rfl

end Cert.KernelIdeal.Hand

end
-- ==== Proof.KernelIdealRunA.lean ====
/-
  The body at a point whose column block is the first: the two running columns are reset to +inf and -inf before the tile's row extrema are folded in; nothing is stored into the output's buffer, which is handed back untouched.
-/
import proofs.«169116_j80736795230438_1_alg».proof.Proof.KernelIdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the two scratch buffers in this case
    (last first), with the proof that on whole memrefs — the four inputs at their blocks — the body runs to the
    continuation holding the inputs as they were and each buffer it stored into with its pieces written: the printed
    function is its skeleton of loads and stores over named payloads, which the symbolic executor runs, each
    conditional decided by the case's hypotheses; the pieces are the witness that run finds. -/
noncomputable def kernelRunA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : condFirst i) (hc1 : ¬condLast i)
    (x0 : Vec F S1024x128 .bf16) (x1 : Vec F S1024x128 .bf16) (x2 : Vec F S1024x1 .i32) (x3 : Vec F S1x1024 .i32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__triple_loss_kernel i arg2 harg2 arg3 harg3 arg4 harg4 arg5 harg5 arg6 harg6 arg7 harg7 arg8 harg8) K } := by
  refine ⟨[], ?_, ?_, fun xi4 E K => ?run⟩
  case run =>
    simp only [cc0__triple_loss_kernel_eq_skeleton]; unfold cc0__triple_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KernelIdealRunB.lean ====
/-
  The body at a point whose column block is neither the first nor the last: the tile's row extrema are folded into the two running columns, found at what the point before left; nothing is stored into the output's buffer.
-/
import proofs.«169116_j80736795230438_1_alg».proof.Proof.KernelIdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the two scratch buffers in this case
    (last first), with the proof that on whole memrefs — the four inputs at their blocks — the body runs to the
    continuation holding the inputs as they were and each buffer it stored into with its pieces written: the printed
    function is its skeleton of loads and stores over named payloads, which the symbolic executor runs, each
    conditional decided by the case's hypotheses; the pieces are the witness that run finds. -/
noncomputable def kernelRunB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : ¬condLast i)
    (x0 : Vec F S1024x128 .bf16) (x1 : Vec F S1024x128 .bf16) (x2 : Vec F S1024x1 .i32) (x3 : Vec F S1x1024 .i32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__triple_loss_kernel i arg2 harg2 arg3 harg3 arg4 harg4 arg5 harg5 arg6 harg6 arg7 harg7 arg8 harg8) K } := by
  refine ⟨[], ?_, ?_, fun xi4 E K => ?run⟩
  case run =>
    simp only [cc0__triple_loss_kernel_eq_skeleton]; unfold cc0__triple_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KernelIdealRunC.lean ====
/-
  The body at a point whose column block is the last: the tile's row extrema are folded into the two running columns, and the row block's losses — running maximum plus margin minus running minimum — are stored into the output's buffer.
-/
import proofs.«169116_j80736795230438_1_alg».proof.Proof.KernelIdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the two scratch buffers in this case
    (last first), with the proof that on whole memrefs — the four inputs at their blocks — the body runs to the
    continuation holding the inputs as they were and each buffer it stored into with its pieces written: the printed
    function is its skeleton of loads and stores over named payloads, which the symbolic executor runs, each
    conditional decided by the case's hypotheses; the pieces are the witness that run finds. -/
noncomputable def kernelRunC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬condFirst i) (hc1 : condLast i)
    (x0 : Vec F S1024x128 .bf16) (x1 : Vec F S1024x128 .bf16) (x2 : Vec F S1024x1 .i32) (x3 : Vec F S1x1024 .i32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__triple_loss_kernel i arg2 harg2 arg3 harg3 arg4 harg4 arg5 harg5 arg6 harg6 arg7 harg7 arg8 harg8) K } := by
  refine ⟨?_, ?_, ?_, fun E K => ?run⟩
  case run =>
    simp only [cc0__triple_loss_kernel_eq_skeleton]; unfold cc0__triple_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    iexists _; iexact HS1

end Cert.KernelIdeal.Hand

end
-- ==== Proof.KernelIdealFrame.lean ====
/-
  The kernel region, point by point.

  After the body at point `t` the two scratch columns hold, for each row of the current row block, the minimum
  (maximum) over the column blocks visited so far in this row block of the tile's masked row minimum (maximum):
  at the first column block the fold starts from +inf (-inf), at a later one from what the point before left.  The
  output's staging buffer is written only at the last column block, with running maximum + margin - running
  minimum.  This module names those contents by recursion on the point (`outsAt`), states the region's invariant
  (the scratch columns at the contents the point before left), assembles the pipeline's proof data, and proves
  the body obligation by cases on the column block.
-/
import proofs.«169116_j80736795230438_1_alg».proof.Proof.KernelIdealRunA
import proofs.«169116_j80736795230438_1_alg».proof.Proof.KernelIdealRunB
import proofs.«169116_j80736795230438_1_alg».proof.Proof.KernelIdealRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point of the grid -/

/-- The body's run at a point whose column block is the first. -/
abbrev runA (c : Dev nD) (t : Fin cfg0.N) (h0 : t.val % 8 = 0) :=
  kernelRunA (F := F) c (grid0.coords t) (ms0 t) (hs0 t) (ms1 t) (hs1 t) (ms2 t) (hs2 t) (ms3 t) (hs3 t) (ms4 t) (hs4 t) scMin (Memref.isWhole_whole _) scMax (Memref.isWhole_whole _)
    ((hcondFirst t).mpr h0) (fun h => by have := (hcondLast t).mp h; omega) (iblk m c 0 t) (iblk m c 1 t) (iblk m c 2 t) (iblk m c 3 t)
/-- The body's run at a point whose column block is neither the first nor the last, the scratch columns found at `xs0`, `xs1`. -/
abbrev runB (c : Dev nD) (t : Fin cfg0.N) (h0 : ¬t.val % 8 = 0) (h1 : ¬t.val % 8 = 7) (xs0 xs1 : Vec F S1024x1 .f32) :=
  kernelRunB (F := F) c (grid0.coords t) (ms0 t) (hs0 t) (ms1 t) (hs1 t) (ms2 t) (hs2 t) (ms3 t) (hs3 t) (ms4 t) (hs4 t) scMin (Memref.isWhole_whole _) scMax (Memref.isWhole_whole _)
    (fun h => h0 ((hcondFirst t).mp h)) (fun h => h1 ((hcondLast t).mp h)) (iblk m c 0 t) (iblk m c 1 t) (iblk m c 2 t) (iblk m c 3 t) xs0 xs1
/-- The body's run at a point whose column block is the last. -/
abbrev runC (c : Dev nD) (t : Fin cfg0.N) (h1 : t.val % 8 = 7) (xs0 xs1 : Vec F S1024x1 .f32) :=
  kernelRunC (F := F) c (grid0.coords t) (ms0 t) (hs0 t) (ms1 t) (hs1 t) (ms2 t) (hs2 t) (ms3 t) (hs3 t) (ms4 t) (hs4 t) scMin (Memref.isWhole_whole _) scMax (Memref.isWhole_whole _)
    (fun h => by have := (hcondFirst t).mp h; omega) ((hcondLast t).mpr h1) (iblk m c 0 t) (iblk m c 1 t) (iblk m c 2 t) (iblk m c 3 t) xs0 xs1

/-- In every case the pieces stored into a scratch column tile it, so they cover it. -/
theorem scoverA_min (c : Dev nD) (t : Fin cfg0.N) (h0 : t.val % 8 = 0) (y : S1024x1.Idx) :
    ∃ pc ∈ (runA m c t h0).2.1, y ∈ pc.1.set :=
  View.cover_of_tiledL (runA m c t h0).2.1 S1024x1.size (by sl_kernel_rfl) y
theorem scoverA_max (c : Dev nD) (t : Fin cfg0.N) (h0 : t.val % 8 = 0) (y : S1024x1.Idx) :
    ∃ pc ∈ (runA m c t h0).2.2.1, y ∈ pc.1.set :=
  View.cover_of_tiledL (runA m c t h0).2.2.1 S1024x1.size (by sl_kernel_rfl) y
theorem scoverB_min (c : Dev nD) (t : Fin cfg0.N) (h0 : ¬t.val % 8 = 0) (h1 : ¬t.val % 8 = 7) (xs0 xs1 : Vec F S1024x1 .f32) (y : S1024x1.Idx) :
    ∃ pc ∈ (runB m c t h0 h1 xs0 xs1).2.1, y ∈ pc.1.set :=
  View.cover_of_tiledL (runB m c t h0 h1 xs0 xs1).2.1 S1024x1.size (by sl_kernel_rfl) y
theorem scoverB_max (c : Dev nD) (t : Fin cfg0.N) (h0 : ¬t.val % 8 = 0) (h1 : ¬t.val % 8 = 7) (xs0 xs1 : Vec F S1024x1 .f32) (y : S1024x1.Idx) :
    ∃ pc ∈ (runB m c t h0 h1 xs0 xs1).2.2.1, y ∈ pc.1.set :=
  View.cover_of_tiledL (runB m c t h0 h1 xs0 xs1).2.2.1 S1024x1.size (by sl_kernel_rfl) y
theorem scoverC_min (c : Dev nD) (t : Fin cfg0.N) (h1 : t.val % 8 = 7) (xs0 xs1 : Vec F S1024x1 .f32) (y : S1024x1.Idx) :
    ∃ pc ∈ (runC m c t h1 xs0 xs1).2.1, y ∈ pc.1.set :=
  View.cover_of_tiledL (runC m c t h1 xs0 xs1).2.1 S1024x1.size (by sl_kernel_rfl) y
theorem scoverC_max (c : Dev nD) (t : Fin cfg0.N) (h1 : t.val % 8 = 7) (xs0 xs1 : Vec F S1024x1 .f32) (y : S1024x1.Idx) :
    ∃ pc ∈ (runC m c t h1 xs0 xs1).2.2.1, y ∈ pc.1.set :=
  View.cover_of_tiledL (runC m c t h1 xs0 xs1).2.2.1 S1024x1.size (by sl_kernel_rfl) y
/-- At the last column block the one store into the output's buffer covers it. -/
theorem coverC_out (c : Dev nD) (t : Fin cfg0.N) (h1 : t.val % 8 = 7) (xs0 xs1 : Vec F S1024x1 .f32) (y : S1024x1.Idx) :
    ∃ pc ∈ (runC m c t h1 xs0 xs1).1, y ∈ pc.1.set :=
  View.cover_of_tiledL (runC m c t h1 xs0 xs1).1 S1024x1.size (by sl_kernel_rfl) y

/-- What a case leaves in a buffer: its pieces read back. -/
def minA (c : Dev nD) (t : Fin cfg0.N) (h0 : t.val % 8 = 0) : Vec F S1024x1 .f32 :=
  VSmin.read (Elt F) (VSmin.writes (Elt F) VSmin.junk (runA m c t h0).2.1)
def maxA (c : Dev nD) (t : Fin cfg0.N) (h0 : t.val % 8 = 0) : Vec F S1024x1 .f32 :=
  VSmax.read (Elt F) (VSmax.writes (Elt F) VSmax.junk (runA m c t h0).2.2.1)
def minB (c : Dev nD) (t : Fin cfg0.N) (h0 : ¬t.val % 8 = 0) (h1 : ¬t.val % 8 = 7) (xs0 xs1 : Vec F S1024x1 .f32) : Vec F S1024x1 .f32 :=
  VSmin.read (Elt F) (VSmin.writes (Elt F) VSmin.junk (runB m c t h0 h1 xs0 xs1).2.1)
def maxB (c : Dev nD) (t : Fin cfg0.N) (h0 : ¬t.val % 8 = 0) (h1 : ¬t.val % 8 = 7) (xs0 xs1 : Vec F S1024x1 .f32) : Vec F S1024x1 .f32 :=
  VSmax.read (Elt F) (VSmax.writes (Elt F) VSmax.junk (runB m c t h0 h1 xs0 xs1).2.2.1)
def minC (c : Dev nD) (t : Fin cfg0.N) (h1 : t.val % 8 = 7) (xs0 xs1 : Vec F S1024x1 .f32) : Vec F S1024x1 .f32 :=
  VSmin.read (Elt F) (VSmin.writes (Elt F) VSmin.junk (runC m c t h1 xs0 xs1).2.1)
def maxC (c : Dev nD) (t : Fin cfg0.N) (h1 : t.val % 8 = 7) (xs0 xs1 : Vec F S1024x1 .f32) : Vec F S1024x1 .f32 :=
  VSmax.read (Elt F) (VSmax.writes (Elt F) VSmax.junk (runC m c t h1 xs0 xs1).2.2.1)
def outC (c : Dev nD) (t : Fin cfg0.N) (h1 : t.val % 8 = 7) (xs0 xs1 : Vec F S1024x1 .f32) : Vec F S1024x1 .f32 :=
  VO.read (Elt F) (VO.writes (Elt F) VO.junk (runC m c t h1 xs0 xs1).1)
/-- Where the output window is idle nothing consults its contents: a placeholder. -/
def outIdle : Vec F S1024x1 .f32 := VO.read (Elt F) VO.junk

/-! ## What the buffers hold after each point -/

/-- After the body at position `n`: the output's staging buffer, the running minima, the running maxima. -/
def outsAt (c : Dev nD) : (n : ℕ) → n < cfg0.N → Vec F S1024x1 .f32 × Vec F S1024x1 .f32 × Vec F S1024x1 .f32
  | 0, hn => (outIdle, minA m c ⟨0, hn⟩ (Nat.zero_mod _), maxA m c ⟨0, hn⟩ (Nat.zero_mod _))
  | n + 1, hn =>
    if h0 : (n + 1) % 8 = 0 then
      (outIdle, minA m c ⟨n + 1, hn⟩ h0, maxA m c ⟨n + 1, hn⟩ h0)
    else if h1 : (n + 1) % 8 = 7 then
      (outC m c ⟨n + 1, hn⟩ h1 (outsAt c n (Nat.lt_of_succ_lt hn)).2.1 (outsAt c n (Nat.lt_of_succ_lt hn)).2.2,
       minC m c ⟨n + 1, hn⟩ h1 (outsAt c n (Nat.lt_of_succ_lt hn)).2.1 (outsAt c n (Nat.lt_of_succ_lt hn)).2.2,
       maxC m c ⟨n + 1, hn⟩ h1 (outsAt c n (Nat.lt_of_succ_lt hn)).2.1 (outsAt c n (Nat.lt_of_succ_lt hn)).2.2)
    else
      (outIdle,
       minB m c ⟨n + 1, hn⟩ h0 h1 (outsAt c n (Nat.lt_of_succ_lt hn)).2.1 (outsAt c n (Nat.lt_of_succ_lt hn)).2.2,
       maxB m c ⟨n + 1, hn⟩ h0 h1 (outsAt c n (Nat.lt_of_succ_lt hn)).2.1 (outsAt c n (Nat.lt_of_succ_lt hn)).2.2)

/-- What the point before `t` left (for a point that is not the first). -/
abbrev prevAt (c : Dev nD) (t : Fin cfg0.N) := outsAt m c (t.val - 1) (Nat.lt_of_le_of_lt (Nat.sub_le _ _) t.isLt)

theorem outsAt_A (c : Dev nD) (t : Fin cfg0.N) (h0 : t.val % 8 = 0) :
    outsAt m c t.val t.isLt = (outIdle, minA m c t h0, maxA m c t h0) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = (outIdle, minB m c t h0 h1 (prevAt m c t).2.1 (prevAt m c t).2.2, maxB m c t h0 h1 (prevAt m c t).2.1 (prevAt m c t).2.2) := by
  obtain ⟨n, hn⟩ := t
  cases n with
  | zero => exact absurd (Nat.zero_mod _) h0
  | succ n => exact (dif_neg h0).trans ((dif_neg h1).trans rfl)

theorem outsAt_C (c : Dev nD) (t : Fin cfg0.N) (h1 : t.val % 8 = 7) :
    outsAt m c t.val t.isLt = (outC m c t h1 (prevAt m c t).2.1 (prevAt m c t).2.2, minC m c t h1 (prevAt m c t).2.1 (prevAt m c t).2.2, maxC m c t h1 (prevAt m c t).2.1 (prevAt m c t).2.2) := by
  obtain ⟨n, hn⟩ := t
  cases n with
  | zero => exact absurd h1 (by simp)
  | succ n =>
    have h1' : (n + 1) % 8 = 7 := h1
    exact (dif_neg (by omega)).trans ((dif_pos h1').trans rfl)

/-! ## The region's invariant -/

/-- Before position `n`: at the start what the launch hands the region (the scratch columns at anything);
    afterwards the two scratch columns at what the point before left, and the generator register at some state. -/
def PhiS (c : Dev nD) : (n : ℕ) → n ≤ cfg0.N → sProp 𝕄
  | 0, _ => Pipeline.ΦA spec0 c
  | n + 1, hn => iprop(iprop(owns (c : Thread nD τ) scMin fullShare ((outsAt m c n hn).2.1) ∗ owns (c : Thread nD τ) scMax fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMin fullShare ((outsAt m c n hn).2.1) ∗ owns (c : Thread nD τ) scMax fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scMin fullShare ((outsAt m c (n - 1) (by omega)).2.1) ∗ owns (c : Thread nD τ) scMax fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block and the output's at
    `outsAt`; the invariant `PhiS`; the table read through two windows held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem q_eq (c : Dev nD) : (dats m 0 c).q 0 = fullShare.left ∧ (dats m 0 c).q 1 = fullShare.right ∧ (dats m 0 c).q 2 = fullShare ∧ (dats m 0 c).q 3 = fullShare :=
  ⟨rfl, rfl, rfl, rfl⟩

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]
theorem leaves_in3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' memrefs hold their blocks; the column block says which case the point is in;
    the invariant hands the body the scratch columns at what the point before left (at anything at the very first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · have hnl : ¬condLast (grid0.coords t) := fun h => by have := (hcondLast t).mp h; omega
    rw [Dat.leavesExact_idle (dats m 0 c) 4 t (idle4 t hnl) (noFlush4 t hnl)]
    rw [outsAt_A m c t h0]
    unfold minA maxA; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((runA m c t h0).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_min m c t h0)
          · unfold owns; iexists _; isplitr
            swap; · iexact HS1
            ipureintro; exact View.read_writes_of_cover _ _ _ _ _ (scoverA_max m c t h0)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runA m c t h0).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_min m c t h0)
          · unfold owns; iexists _; isplitr
            swap; · iexact HS1
            ipureintro; exact View.read_writes_of_cover _ _ _ _ _ (scoverA_max m c t h0)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms4 t) fullShare ((dats m 0 c).after 4 t) from by
        unfold Dat.leavesExact; rw [live4 t ((hcondLast t).mpr h1)], after4]
      rw [outsAt_C m c t h1]
      unfold outC minC maxC; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runC m c t h1 (prevAt m c t).2.1 (prevAt m c t).2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC_min m c t h1 _ _)
          · unfold owns; iexists _; isplitr
            swap; · iexact HS1
            ipureintro; exact View.read_writes_of_cover _ _ _ _ _ (scoverC_max m c t h1 _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_out m c t h1 _ _)
    · have hnl : ¬condLast (grid0.coords t) := fun h => h1 ((hcondLast t).mp h)
      rw [Dat.leavesExact_idle (dats m 0 c) 4 t (idle4 t hnl) (noFlush4 t hnl)]
      rw [outsAt_B m c t h0 h1]
      unfold minB maxB; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((runB m c t h0 h1 (prevAt m c t).2.1 (prevAt m c t).2.2).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_min m c t h0 h1 _ _)
          · unfold owns; iexists _; isplitr
            swap; · iexact HS1
            ipureintro; exact View.read_writes_of_cover _ _ _ _ _ (scoverB_max m c t h0 h1 _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the scratch columns' named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KernelIdealPieces.lean ====
/-
  What each case's stores leave, as the body's named pure values of the blocks it loaded.

  Every store of the body is through the whole rectangle of its buffer, so the last store into a buffer decides its
  contents, and a load that follows a store reads that store's value.  Hence, writing `tileMin` / `tileMax` for
  the tile's masked row minima / maxima (the payloads of the four input blocks): a scratch column ends at the fold
  of the tile's value into what the column held (the reset value at the first column block), and at the last column
  block the output's buffer ends at "running maximum + margin - running minimum" of the two columns just stored.
-/
import proofs.«169116_j80736795230438_1_alg».proof.Proof.KernelIdealRunA
import proofs.«169116_j80736795230438_1_alg».proof.Proof.KernelIdealRunB
import proofs.«169116_j80736795230438_1_alg».proof.Proof.KernelIdealRunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores' rectangles start at the origin. -/
theorem hz2 : (![0, 0] : Fin 2 → Nat) = fun _ => 0 := by funext a; fin_cases a <;> rfl

section
variable (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (x0 : Vec F S1024x128 .bf16) (x1 : Vec F S1024x128 .bf16) (x2 : Vec F S1024x1 .i32) (x3 : Vec F S1x1024 .i32)

theorem pieceA_min (hc0 : condFirst i) (hc1 : ¬condLast i) :
    View.canon (kernelRunA (F := F) c i arg2 harg2 arg3 harg3 arg4 harg4 arg5 harg5 arg6 harg6 arg7 harg7 arg8 harg8 hc0 hc1 x0 x1 x2 x3).2.1 = k0_pay1 (k0_pay8 i x0 x1 x2 x3) (k0_pay4 (F := F)) := by
  unfold kernelRunA; dsimp only; sl_unfold_words
  rw [View.canon_cons_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

theorem pieceA_max (hc0 : condFirst i) (hc1 : ¬condLast i) :
    View.canon (kernelRunA (F := F) c i arg2 harg2 arg3 harg3 arg4 harg4 arg5 harg5 arg6 harg6 arg7 harg7 arg8 harg8 hc0 hc1 x0 x1 x2 x3).2.2.1 = k0_pay2 (k0_pay9 x0 x1 x2 x3) (k0_pay5 (F := F)) := by
  unfold kernelRunA; dsimp only; sl_unfold_words
  rw [View.canon_cons_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

variable (xs0 xs1 : Vec F S1024x1 .f32)

theorem pieceB_min (hc0 : ¬condFirst i) (hc1 : ¬condLast i) :
    View.canon (kernelRunB (F := F) c i arg2 harg2 arg3 harg3 arg4 harg4 arg5 harg5 arg6 harg6 arg7 harg7 arg8 harg8 hc0 hc1 x0 x1 x2 x3 xs0 xs1).2.1 = k0_pay1 (k0_pay8 i x0 x1 x2 x3) xs0 := by
  unfold kernelRunB; dsimp only; sl_unfold_words
  rw [View.canon_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

theorem pieceB_max (hc0 : ¬condFirst i) (hc1 : ¬condLast i) :
    View.canon (kernelRunB (F := F) c i arg2 harg2 arg3 harg3 arg4 harg4 arg5 harg5 arg6 harg6 arg7 harg7 arg8 harg8 hc0 hc1 x0 x1 x2 x3 xs0 xs1).2.2.1 = k0_pay2 (k0_pay9 x0 x1 x2 x3) xs1 := by
  unfold kernelRunB; dsimp only; sl_unfold_words
  rw [View.canon_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

theorem pieceC_min (hc0 : ¬condFirst i) (hc1 : condLast i) :
    View.canon (kernelRunC (F := F) c i arg2 harg2 arg3 harg3 arg4 harg4 arg5 harg5 arg6 harg6 arg7 harg7 arg8 harg8 hc0 hc1 x0 x1 x2 x3 xs0 xs1).2.1 = k0_pay1 (k0_pay8 i x0 x1 x2 x3) xs0 := by
  unfold kernelRunC; dsimp only; sl_unfold_words
  rw [View.canon_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

theorem pieceC_max (hc0 : ¬condFirst i) (hc1 : condLast i) :
    View.canon (kernelRunC (F := F) c i arg2 harg2 arg3 harg3 arg4 harg4 arg5 harg5 arg6 harg6 arg7 harg7 arg8 harg8 hc0 hc1 x0 x1 x2 x3 xs0 xs1).2.2.1 = k0_pay2 (k0_pay9 x0 x1 x2 x3) xs1 := by
  unfold kernelRunC; dsimp only; sl_unfold_words
  rw [View.canon_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

theorem pieceC_out (hc0 : ¬condFirst i) (hc1 : condLast i) :
    View.canon (kernelRunC (F := F) c i arg2 harg2 arg3 harg3 arg4 harg4 arg5 harg5 arg6 harg6 arg7 harg7 arg8 harg8 hc0 hc1 x0 x1 x2 x3 xs0 xs1).1
      = k0_pay3 (k0_pay2 (k0_pay9 x0 x1 x2 x3) xs1) (k0_pay1 (k0_pay8 i x0 x1 x2 x3) xs0) := by
  unfold kernelRunC; dsimp only; sl_unfold_words
  rw [View.canon_unit_zero hz2]
  simp only [View.readCov_unit_zero (S := S1024x1) _ hz2, View.readAt_eq_ld, harg2.read_unread, harg3.read_unread, harg4.read_unread, harg5.read_unread, harg7.read_unread, harg8.read_unread, View.ld_unit_zero (S := S1024x1) hz2, View.ld_unit_zero (S := S1024x128) hz2, View.ld_unit_zero (S := S1x1024) hz2]
  try rfl

end

end Cert.KernelIdeal.Hand

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelIdealBlocks.lean ====
/-
  Where each window's block sits in its array.

  At point `t` the row block is `t / 8` and the column block `t % 8`.  Window 0 stages rows
  `[t/8 * 1024, t/8 * 1024 + 1024)` of the table, window 1 rows `[t%8 * 1024, …)` of the SAME table (the tile's
  columns), window 2 the same rows as window 0 of the label column, window 3 the columns `[t%8 * 1024, …)` of the
  label row, and the output window rows `[t/8 * 1024, …)` of the loss column.  The label column and the label row
  are reshapes of the label vector, so both read the vector at the row, respectively the column, number.
-/
import proofs.«169116_j80736795230438_1_alg».proof.Proof.KernelIdealRuns
import proofs.«169116_j80736795230438_1_alg».proof.Proof.LibColumnCast
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps and the grid's coordinates, decided once over the 64 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ (grid0.coords t 0).val = t.val / 8 ∧ (grid0.coords t 1).val = t.val % 8 :=
  (by decide +kernel : ∀ t : Fin grid0.N, _)

theorem t_lt (t : Fin cfg0.N) : t.val < 64 := lt_of_lt_of_eq t.isLt (show cfg0.N = 64 from N_0)

/-- The table row behind row `p` of point `t`'s row block. -/
def rowOf (t : Fin cfg0.N) (p : Fin 1024) : Fin 8192 := ⟨t.val / 8 * 1024 + p.val, by have := t_lt t; have := p.isLt; omega⟩
/-- The table row behind column `q` of point `t`'s tile. -/
def colOf (t : Fin cfg0.N) (q : Fin 1024) : Fin 8192 := ⟨t.val % 8 * 1024 + q.val, by have := p_lt q; omega⟩
where p_lt (q : Fin 1024) : q.val < 1024 := q.isLt

theorem rowOf_val (t : Fin cfg0.N) (p : Fin 1024) : (rowOf t p).val = t.val / 8 * 1024 + p.val := rfl
theorem colOf_val (t : Fin cfg0.N) (q : Fin 1024) : (colOf t q).val = t.val % 8 * 1024 + q.val := rfl

/-- The row block's rows of the table. -/
theorem iblk0_apply (c : Dev nD) (t : Fin cfg0.N) (p : Fin 1024) (k : Fin 128) :
    iblk m c 0 t (ix2 p k) = V m c main_v5 (ix2 (rowOf t p) k) := by
  obtain ⟨e0, e1, -⟩ := idx_facts t
  show V m c main_v5 (((cfg0.win 0).blk t).view.emb (ix2 p k)) = V m c main_v5 (ix2 (rowOf t p) k)
  refine congrArg (V m c main_v5) ?_
  funext a; apply Fin.ext
  match a with
  | ⟨0, _⟩ => show win0_0.index t (0 : Fin 2) * 1024 + 1 * p.val = t.val / 8 * 1024 + p.val; omega
  | ⟨1, _⟩ => show win0_0.index t (1 : Fin 2) * 128 + 1 * k.val = k.val; omega

/-- The tile's columns: the column block's rows of the same table. -/
theorem iblk1_apply (c : Dev nD) (t : Fin cfg0.N) (q : Fin 1024) (k : Fin 128) :
    iblk m c 1 t (ix2 q k) = V m c main_v5 (ix2 (colOf t q) k) := by
  obtain ⟨-, -, e0, e1, -⟩ := idx_facts t
  show V m c main_v5 (((cfg0.win 1).blk t).view.emb (ix2 q k)) = V m c main_v5 (ix2 (colOf t q) k)
  refine congrArg (V m c main_v5) ?_
  funext a; apply Fin.ext
  match a with
  | ⟨0, _⟩ => show win0_1.index t (0 : Fin 2) * 1024 + 1 * q.val = t.val % 8 * 1024 + q.val; omega
  | ⟨1, _⟩ => show win0_1.index t (1 : Fin 2) * 128 + 1 * k.val = k.val; omega

/-- The row block's rows of the label column. -/
theorem iblk2_apply (c : Dev nD) (t : Fin cfg0.N) (p : Fin 1024) :
    iblk m c 2 t (ix2 p (0 : Fin 1)) = V m c main_v6 (ix2 (rowOf t p) (0 : Fin 1)) := by
  obtain ⟨-, -, -, -, e0, e1, -⟩ := idx_facts t
  show V m c main_v6 (((cfg0.win 2).blk t).view.emb (ix2 p (0 : Fin 1))) = V m c main_v6 (ix2 (rowOf t p) (0 : Fin 1))
  refine congrArg (V m c main_v6) ?_
  funext a; apply Fin.ext
  match a with
  | ⟨0, _⟩ => show win0_2.index t (0 : Fin 2) * 1024 + 1 * p.val = t.val / 8 * 1024 + p.val; omega
  | ⟨1, _⟩ => show win0_2.index t (1 : Fin 2) * 1 + 1 * 0 = 0; omega

/-- The column block's columns of the label row. -/
theorem iblk3_apply (c : Dev nD) (t : Fin cfg0.N) (q : Fin 1024) :
    iblk m c 3 t (ix2 (0 : Fin 1) q) = V m c main_v7 (ix2 (0 : Fin 1) (colOf t q)) := by
  obtain ⟨-, -, -, -, -, -, e0, e1, -⟩ := idx_facts t
  show V m c main_v7 (((cfg0.win 3).blk t).view.emb (ix2 (0 : Fin 1) q)) = V m c main_v7 (ix2 (0 : Fin 1) (colOf t q))
  refine congrArg (V m c main_v7) ?_
  funext a; apply Fin.ext
  match a with
  | ⟨0, _⟩ => show win0_3.index t (0 : Fin 2) * 1 + 1 * 0 = 0; omega
  | ⟨1, _⟩ => show win0_3.index t (1 : Fin 2) * 1024 + 1 * q.val = t.val % 8 * 1024 + q.val; omega

/-- The label column is the label vector, read at the row. -/
theorem V_labelCol (c : Dev nD) (r : Fin 8192) :
    V m c main_v6 (ix2 r (0 : Fin 1)) = m ((c : Thread nD τ).loc main_arg1) (ix1 r) := by
  have e : (V m c main_v6 : S8192x1.Idx → Elt F .i32) = shapeCast S8192x1 (m ((c : Thread nD τ).loc main_arg1)) shapeCasts_S8192_S8192x1 := by
    dsimp only [V, V0]
    simp only [hostOps0, hostOps0_1, List.flatten_cons, List.flatten_nil, List.append_nil, List.cons_append, List.nil_append]
    after_results; rfl
  rw [e]
  exact Cert.LibColumnCast.shapeCast_a_a1_apply _ _ r 0

/-- The label row is the label vector, read at the column. -/
theorem V_labelRow (c : Dev nD) (s : Fin 8192) :
    V m c main_v7 (ix2 (0 : Fin 1) s) = m ((c : Thread nD τ).loc main_arg1) (ix1 s) := by
  have e : (V m c main_v7 : S1x8192.Idx → Elt F .i32) = shapeCast S1x8192 (m ((c : Thread nD τ).loc main_arg1)) shapeCasts_S8192_S1x8192 := by
    dsimp only [V, V0]
    simp only [hostOps0, hostOps0_1, List.flatten_cons, List.flatten_nil, List.append_nil, List.cons_append, List.nil_append]
    after_results; rfl
  rw [e]
  exact shapeCast_a_1a_apply _ _ 0 s

end Cert.KernelIdeal.Hand

end
-- ==== Proof.Spec.lean ====
/-
  What both programs compute, as one function of a row-normalised embedding table and a label vector.

  For a table `x` of 8192 rows and 128 columns and labels `lab`, the similarity of rows `r` and `s` is the
  inner product `sim x r s = ∑ k, x r k * x s k`.  Row `r`'s hardest positive is the least similarity over the
  other rows with `r`'s label, every other entry pushed up by the literal `2` before the minimum is taken; its
  hardest negative is the greatest similarity over the rows with another label, the entries with `r`'s own label
  (the diagonal among them) pushed down by `2` before the maximum is taken.  The row's loss is
  `hardest negative + margin - hardest positive`, and the result is the sum of the rows' losses.

  Everything is read on the extended reals: minimum and maximum are the lattice's infimum and supremum over all
  8192 columns, so it does not matter in how many column blocks they are taken, and the final sum is a sum in a
  commutative monoid, so its order and its arrangement as a column or a vector do not matter either.  The two
  literals are kept as the bit patterns both programs print; they are never evaluated.
-/
import Idealize.ShloMosaic.PureOps.Ideal
import Idealize.ShloMosaic.Lib.ValueIdx

noncomputable section

namespace Cert.Triplet

open Idealize.ShloMosaic

/-- The literal `2.0` both programs add to, or subtract from, a masked similarity. -/
abbrev two : EReal := Ideal.ofBits .f32 0x40000000#32
/-- The margin literal (the f32 nearest `0.3`), the same pattern in both programs. -/
abbrev margin : EReal := Ideal.ofBits .f32 0x3E99999A#32

/-- The similarity of rows `r` and `s`: their inner product over the 128 columns. -/
def sim (x : Fin 8192 → Fin 128 → EReal) (r s : Fin 8192) : EReal := ∑ k : Fin 128, x r k * x s k

/-- Row `r`'s hardest positive: the infimum over all columns `s` of the similarity where `s` is another row
    with `r`'s label, and of the similarity plus `2` elsewhere. -/
def hardPos (x : Fin 8192 → Fin 128 → EReal) (lab : Fin 8192 → BitVec 32) (r : Fin 8192) : EReal :=
  ⨅ s : Fin 8192, if lab r = lab s ∧ r ≠ s then sim x r s else sim x r s + two

/-- Row `r`'s hardest negative: the supremum over all columns `s` of the similarity minus `2` where `s` has
    `r`'s label, and of the similarity elsewhere. -/
def hardNeg (x : Fin 8192 → Fin 128 → EReal) (lab : Fin 8192 → BitVec 32) (r : Fin 8192) : EReal :=
  ⨆ s : Fin 8192, if lab r = lab s then sim x r s - two else sim x r s

/-- Row `r`'s loss. -/
def rowLoss (x : Fin 8192 → Fin 128 → EReal) (lab : Fin 8192 → BitVec 32) (r : Fin 8192) : EReal :=
  hardNeg x lab r + margin - hardPos x lab r

/-- The result: the sum of the rows' losses. -/
def total (x : Fin 8192 → Fin 128 → EReal) (lab : Fin 8192 → BitVec 32) : EReal := ∑ r : Fin 8192, rowLoss x lab r

end Cert.Triplet

end
-- ==== Proof.LibMinReduce.lean ====
/-
  Minimum reductions over one axis, on the extended reals.

  * `fold_min_top`: folding `min` from the top element over all of a finite type gives the infimum of the family
    (both are characterised by: `z` is below the result iff `z` is below every member).
  * `multiReduction_minimumf_single`: a vector min-reduction over one axis, read with exact values, is at each result
    index the fold of `min` from the accumulator's value over that axis's coordinates (the companion of the library's
    statement for the maximum).
  * `multiReduction_minimumf_inf`: with the accumulator `+∞` that fold is the infimum over the axis.
-/
import Idealize.ShloMosaic.PureOps.Ideal.Laws

noncomputable section

namespace Cert.LibMinReduce

open Idealize.ShloMosaic

/-- Folding `min` from `⊤` over a whole finite type is the infimum of the family. -/
theorem fold_min_top {ι : Type*} [Fintype ι] (f : ι → EReal) :
    (Finset.univ : Finset ι).fold min ⊤ f = ⨅ k, f k := by
  refine eq_of_forall_le_iff fun z => ?_
  rw [Finset.le_fold_min, le_iInf_iff]
  exact ⟨fun h k => h.2 k (Finset.mem_univ k), fun h => ⟨le_top, fun k _ => h k⟩⟩

/-- The f32 pattern of `+∞` is the top extended real. -/
theorem ofBits_inf : Ideal.ofBits .f32 0x7F800000#32 = (⊤ : EReal) := by
  simp [Ideal.ofBits, Ideal.ieee]

variable {φ : FTy}

/-- A float min-reduction over one axis, read with exact values: the fold of `min` from the accumulator's value over that
    axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the accumulator `+∞` (f32), a min-reduction over one axis is the infimum over that axis's coordinates. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [ofBits_inf, fold_min_top]
  rfl

end Cert.LibMinReduce

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.TileUpdate.lean ====
/-
  The body's three running values and its final combination, read entry by entry on the extended reals.

  A row block keeps two running columns across the column blocks: the least masked similarity seen so far and the
  greatest.  Before the first column block they are set to +∞ and -∞ (the neutral elements of min and max); after
  each column block the new block's extremum is folded in with min, respectively max; after the last column block
  the row's loss is the running maximum plus the margin minus the running minimum.  Every operation here is
  pointwise, so at row `p` each value is the corresponding operation on the operands' entries at row `p`.
-/
import proofs.«169116_j80736795230438_1_alg».proof.Proof.Gen.KernelIdeal.Skeleton
import proofs.«169116_j80736795230438_1_alg».proof.Proof.Spec
import Idealize.ShloMosaic.Lib.ValueLayout
import proofs.«169116_j80736795230438_1_alg».proof.Proof.LibMinReduce
import proofs.«169116_j80736795230438_1_alg».proof.Proof.LibMaxReduce

noncomputable section

namespace Cert.Triplet.Tile

open Idealize.ShloMosaic Idealize.ShloMosaic.ValueIdx Cert.KernelIdeal Cert.KernelIdeal.Gen

/-- The running minimum after a column block: the minimum of the stored value and the block's minimum. -/
theorem pay1_apply (v31 : FVec Ideal S1024x1 .f32) (v37 : Vec Ideal S1024x1 .f32) (p : Fin 1024) :
    k0_pay1 (F := Ideal) v31 v37 (ix2 p (0 : Fin 1)) = min (v37 (ix2 p (0 : Fin 1))) (v31 (ix2 p (0 : Fin 1))) := by
  unfold k0_pay1
  rw [shapeCast_self]
  rfl

/-- The running maximum after a column block: the maximum of the stored value and the block's maximum. -/
theorem pay2_apply (v36 : FVec Ideal S1024x1 .f32) (v42 : Vec Ideal S1024x1 .f32) (p : Fin 1024) :
    k0_pay2 (F := Ideal) v36 v42 (ix2 p (0 : Fin 1)) = max (v42 (ix2 p (0 : Fin 1))) (v36 (ix2 p (0 : Fin 1))) := by
  unfold k0_pay2
  rw [shapeCast_self]
  rfl

/-- The row's loss: the running maximum plus the margin minus the running minimum. -/
theorem pay3_apply (v50 v53 : Vec Ideal S1024x1 .f32) (p : Fin 1024) :
    k0_pay3 (F := Ideal) v50 v53 (ix2 p (0 : Fin 1))
      = v50 (ix2 p (0 : Fin 1)) + Cert.Triplet.margin - v53 (ix2 p (0 : Fin 1)) := by
  unfold k0_pay3
  rfl

/-- The running minimum starts at +∞. -/
theorem pay4_apply (p : Fin 1024) : k0_pay4 (F := Ideal) (ix2 p (0 : Fin 1)) = (⊤ : EReal) := by
  unfold k0_pay4
  rw [shapeCast_self]
  exact LibMinReduce.ofBits_inf

/-- The running maximum starts at -∞. -/
theorem pay5_apply (p : Fin 1024) : k0_pay5 (F := Ideal) (ix2 p (0 : Fin 1)) = (⊥ : EReal) := by
  unfold k0_pay5
  rw [shapeCast_self]
  exact LibMaxReduce.ofBits_neg_inf

end Cert.Triplet.Tile

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.TileSim.lean ====
/-
  The similarity tile: the product of the row block with the transposed column block, read at an entry.

  The body multiplies the 1024×128 row block by the transpose of the 1024×128 column block into a zero accumulator.
  Entry (p, q) of that product is the sum over the 128 shared coordinates k of (row block at (p, k)) times
  (transposed column block at (k, q)), and the transposed block at (k, q) is the column block at (q, k): the entry
  is the inner product of row p of the row block with row q of the column block.
-/
import proofs.«169116_j80736795230438_1_alg».proof.Proof.Gen.KernelIdeal.Skeleton
import proofs.«169116_j80736795230438_1_alg».proof.Proof.Spec
import Idealize.ShloMosaic.Lib.ValueLayout
import proofs.«169116_j80736795230438_1_alg».proof.Proof.LibPlainMatmul

noncomputable section

namespace Cert.Triplet.Tile

open Idealize.ShloMosaic Idealize.ShloMosaic.ValueIdx Cert.KernelIdeal Cert.KernelIdeal.Gen

/-- The body's contraction is the plain matrix product's: left operand contracted on its second axis, right operand
    on its first, no batch axes. -/
theorem dims_eq_plain : dot_S1024x128_S128x1024_S1024x1024_1_0_0_1_n_n = DotDims.plain 1024 128 1024 := rfl

/-- The similarity tile at (p, q): the inner product of row `p` of the row block and row `q` of the column block. -/
theorem pay6_apply (x0 x1 : Vec Ideal S1024x128 .bf16) (p q : Fin 1024) :
    k0_pay6 (F := Ideal) x0 x1 (ix2 p q) = ∑ k : Fin 128, x0 (ix2 p k) * x1 (ix2 q k) := by
  unfold k0_pay6
  rw [shapeCast_self, shapeCast_self, dims_eq_plain]
  refine (matmul_plain_zero_apply none (φ₁ := .bf16) (φ₂ := .bf16) x0
    (transpose S128x1024 [1, 0] x1 transposes_S1024x128_p1_0_S128x1024) p q).trans ?_
  refine Finset.sum_congr rfl fun k _ => ?_
  rw [transpose_ix2_apply]

end Cert.Triplet.Tile

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.TileMask.lean ====
/-
  The two masks of a similarity tile, read at an entry.

  The label mask marks the entries (p, q) whose row label equals the column label: the label column is repeated
  along the rows' entries, the label row along the columns' entries, and the two are compared word by word.

  The diagonal mask marks the entries that are one and the same row of the whole table: row block `a` and column
  block `b` hold the table's rows `a * 1024 + p` and `b * 1024 + q`; with `a, b < 8` and `p, q < 1024` these numbers are
  below 2^13, so the 32-bit words the body computes are equal exactly when the numbers are.  The mask of positives
  is the label mask with the diagonal removed.
-/
import proofs.«169116_j80736795230438_1_alg».proof.Proof.Gen.KernelIdeal.Skeleton
import proofs.«169116_j80736795230438_1_alg».proof.Proof.Spec
import Idealize.ShloMosaic.Lib.ValueLayout
import proofs.«169116_j80736795230438_1_alg».proof.Proof.LibColumnBroadcast

noncomputable section

namespace Cert.Triplet.Tile

open Idealize.ShloMosaic Idealize.ShloMosaic.ValueIdx Cert.KernelIdeal Cert.KernelIdeal.Gen

/-- The label mask at (p, q) is the word comparison of row `p`'s label with column `q`'s. -/
theorem pay7_apply (l0 : Vec Ideal S1024x1 .i32) (l1 : Vec Ideal S1x1024 .i32) (p q : Fin 1024) :
    k0_pay7 (F := Ideal) l0 l1 (ix2 p q) = IntOp.cmpi .eq (l0 (ix2 p (0 : Fin 1))) (l1 (ix2 (0 : Fin 1) q)) := by
  unfold k0_pay7
  rw [shapeCast_self, shapeCast_self]
  show IntOp.cmpi .eq (broadcastTo S1024x1024 l0 broadcasts_S1024x1_S1024x1024 (ix2 p q))
      (broadcastTo S1024x1024 l1 broadcasts_S1x1024_S1024x1024 (ix2 p q)) = _
  rw [LibColumnBroadcast.broadcastTo_a1_ab_apply, broadcastTo_1b_ab_apply]

/-- The label mask at (p, q) is set exactly when the two labels are equal. -/
theorem pay7_eq_one_iff (l0 : Vec Ideal S1024x1 .i32) (l1 : Vec Ideal S1x1024 .i32) (p q : Fin 1024) :
    k0_pay7 (F := Ideal) l0 l1 (ix2 p q) = 1#1 ↔ l0 (ix2 p (0 : Fin 1)) = l1 (ix2 (0 : Fin 1) q) := by
  rw [pay7_apply]
  exact IntOp.cmpi_eq

/-- Block number `a` below 8 and offset `p` below 1024: the word `a * 1024 + p` is computed without wrapping. -/
theorem global_word (a p : ℕ) (ha : a < 8) (hp : p < 1024) :
    IntOp.addi (Scalar.muli (BitVec.ofNat 32 a) 1024#32) (BitVec.ofNat 32 p) = BitVec.ofNat 32 (a * 1024 + p) := by
  apply BitVec.eq_of_toNat_eq
  simp only [IntOp.addi, Scalar.muli, IntOp.muli, BitVec.toNat_add, BitVec.toNat_mul, BitVec.toNat_ofNat]
  omega

/-- Two such words are equal exactly when the numbers are. -/
theorem global_word_eq_iff (a b p q : ℕ) (ha : a < 8) (hb : b < 8) (hp : p < 1024) (hq : q < 1024) :
    IntOp.addi (Scalar.muli (BitVec.ofNat 32 a) 1024#32) (BitVec.ofNat 32 p)
        = IntOp.addi (Scalar.muli (BitVec.ofNat 32 b) 1024#32) (BitVec.ofNat 32 q)
      ↔ a * 1024 + p = b * 1024 + q := by
  rw [global_word a p ha hp, global_word b q hb hq]
  constructor
  · intro h
    have h' := congrArg BitVec.toNat h
    simp only [BitVec.toNat_ofNat] at h'
    omega
  · intro h; rw [h]

/-- On one bit, exclusive-or with `1` is set exactly when the bit is not. -/
theorem xori_one_eq_one_iff (b : BitVec 1) : IntOp.xori b 1#1 = 1#1 ↔ ¬b = 1#1 := by
  revert b; decide

/-- The mask of positives of the tile at grid point `i`: the label mask with the entries removed at which the row
    block's row and the column block's row are the same row of the table. -/
def posMask (i : grid0.Coords) (l0 : Vec Ideal S1024x1 .i32) (l1 : Vec Ideal S1x1024 .i32) : IVec S1024x1024 1 :=
  andi (k0_pay7 (F := Ideal) l0 l1)
    (xori
      (cmpi .eq
        (addi (broadcast S1024x1024 (Scalar.muli (BitVec.ofNat 32 (i 0).val) 1024#32))
          (iota .tc S1024x1024 32 [0] iota_S1024x1024_d0_w32))
        (addi (broadcast S1024x1024 (Scalar.muli (BitVec.ofNat 32 (i 1).val) 1024#32))
          (iota .tc S1024x1024 32 [1] iota_S1024x1024_d1_w32)))
      (constantI S1024x1024 1 1#1))

/-- The mask of positives at (p, q) is set exactly when the labels are equal and the two rows of the table differ. -/
theorem posMask_eq_one_iff (i : grid0.Coords) (l0 : Vec Ideal S1024x1 .i32) (l1 : Vec Ideal S1x1024 .i32)
    (p q : Fin 1024) :
    posMask i l0 l1 (ix2 p q) = 1#1
      ↔ l0 (ix2 p (0 : Fin 1)) = l1 (ix2 (0 : Fin 1) q) ∧ (i 0).val * 1024 + p.val ≠ (i 1).val * 1024 + q.val := by
  have h0 : (i 0).val < 8 := (i 0).isLt
  have h1 : (i 1).val < 8 := (i 1).isLt
  have e0 : iota .tc S1024x1024 32 [0] iota_S1024x1024_d0_w32 (ix2 p q) = BitVec.ofNat 32 p.val :=
    iota_single_apply .tc S1024x1024 32 0 iota_S1024x1024_d0_w32 (ix2 p q)
  have e1 : iota .tc S1024x1024 32 [1] iota_S1024x1024_d1_w32 (ix2 p q) = BitVec.ofNat 32 q.val :=
    iota_single_apply .tc S1024x1024 32 1 iota_S1024x1024_d1_w32 (ix2 p q)
  show IntOp.andi (k0_pay7 (F := Ideal) l0 l1 (ix2 p q))
      (IntOp.xori
        (IntOp.cmpi .eq
          (IntOp.addi (Scalar.muli (BitVec.ofNat 32 (i 0).val) 1024#32)
            (iota .tc S1024x1024 32 [0] iota_S1024x1024_d0_w32 (ix2 p q)))
          (IntOp.addi (Scalar.muli (BitVec.ofNat 32 (i 1).val) 1024#32)
            (iota .tc S1024x1024 32 [1] iota_S1024x1024_d1_w32 (ix2 p q))))
        1#1) = 1#1 ↔ _
  rw [e0, e1, IntOp.andi_eq_one, pay7_eq_one_iff, xori_one_eq_one_iff, IntOp.cmpi_eq,
    global_word_eq_iff _ _ _ _ h0 h1 p.isLt q.isLt]

end Cert.Triplet.Tile

end
-- ==== Proof.TileExtrema.lean ====
/-
  The tile's two extrema, read row by row on the extended reals.

  For row `p` of the row block the body takes, over the 1024 columns `q` of the tile, the minimum of the similarity
  where `q` is another row of the table with `p`'s label and of the similarity plus 2 elsewhere, starting from +∞;
  and the maximum of the similarity minus 2 where `q` has `p`'s label and of the similarity elsewhere, starting
  from -∞.  A minimum from +∞ over a finite axis is the infimum over that axis, a maximum from -∞ the supremum; the
  entry chosen by each mask is read off the mask's bit at (p, q).
-/
import proofs.«169116_j80736795230438_1_alg».proof.Proof.Gen.KernelIdeal.Skeleton
import proofs.«169116_j80736795230438_1_alg».proof.Proof.Spec
import Idealize.ShloMosaic.Lib.ValueLayout
import proofs.«169116_j80736795230438_1_alg».proof.Proof.LibMinReduce
import proofs.«169116_j80736795230438_1_alg».proof.Proof.LibMaxReduce
import proofs.«169116_j80736795230438_1_alg».proof.Proof.LibColumnCast
import proofs.«169116_j80736795230438_1_alg».proof.Proof.TileSim
import proofs.«169116_j80736795230438_1_alg».proof.Proof.TileMask

noncomputable section

namespace Cert.Triplet.Tile

open Idealize.ShloMosaic Idealize.ShloMosaic.ValueIdx Cert.KernelIdeal Cert.KernelIdeal.Gen

/-- Row `p` of the reduced array with column `q` put back on the reduced axis is the tile's entry (p, q). -/
theorem lift_ix (h : S1024x1024.Reduces [1] S1024) (p q : Fin 1024) : h.lift (ix1 p) q = ix2 p q := by
  funext c
  match c with
  | ⟨0, _⟩ => exact Fin.ext rfl
  | ⟨1, _⟩ => exact Fin.ext rfl

/-- The tile's hardest positive for row `p`: the infimum over the tile's columns of the similarity where the column is
    another row of the table with the same label, and of the similarity plus 2 elsewhere. -/
theorem pay8_apply (i : grid0.Coords) (x0 x1 : Vec Ideal S1024x128 .bf16) (l0 : Vec Ideal S1024x1 .i32)
    (l1 : Vec Ideal S1x1024 .i32) (p : Fin 1024) :
    k0_pay8 (F := Ideal) i x0 x1 l0 l1 (ix2 p (0 : Fin 1))
      = ⨅ q : Fin 1024, if l0 (ix2 p (0 : Fin 1)) = l1 (ix2 (0 : Fin 1) q)
              ∧ (i 0).val * 1024 + p.val ≠ (i 1).val * 1024 + q.val
          then (∑ k : Fin 128, x0 (ix2 p k) * x1 (ix2 q k))
          else (∑ k : Fin 128, x0 (ix2 p k) * x1 (ix2 q k)) + Cert.Triplet.two := by
  unfold k0_pay8
  refine (LibColumnCast.shapeCast_a_a1_apply _ _ p 0).trans ?_
  refine (LibMinReduce.multiReduction_minimumf_inf _ _ _ _ (ix1 p)).trans ?_
  show (⨅ q : Fin 1024, _) = ⨅ q : Fin 1024, _
  refine iInf_congr fun (q : Fin 1024) => ?_
  rw [lift_ix]
  show Scalar.select (posMask i l0 l1 (ix2 p q)) (k0_pay6 (F := Ideal) x0 x1 (ix2 p q))
      (k0_pay6 (F := Ideal) x0 x1 (ix2 p q) + Cert.Triplet.two) = _
  rw [pay6_apply]
  by_cases h : l0 (ix2 p (0 : Fin 1)) = l1 (ix2 (0 : Fin 1) q)
      ∧ (i 0).val * 1024 + p.val ≠ (i 1).val * 1024 + q.val
  · rw [if_pos h, (posMask_eq_one_iff i l0 l1 p q).mpr h, select_one]
  · rw [if_neg h, eq_zero_of_ne_one (fun hm => h ((posMask_eq_one_iff i l0 l1 p q).mp hm)), select_zero]

/-- The tile's hardest negative for row `p`: the supremum over the tile's columns of the similarity minus 2 where the
    column has the same label, and of the similarity elsewhere. -/
theorem pay9_apply (x0 x1 : Vec Ideal S1024x128 .bf16) (l0 : Vec Ideal S1024x1 .i32) (l1 : Vec Ideal S1x1024 .i32)
    (p : Fin 1024) :
    k0_pay9 (F := Ideal) x0 x1 l0 l1 (ix2 p (0 : Fin 1))
      = ⨆ q : Fin 1024, if l0 (ix2 p (0 : Fin 1)) = l1 (ix2 (0 : Fin 1) q)
          then (∑ k : Fin 128, x0 (ix2 p k) * x1 (ix2 q k)) - Cert.Triplet.two
          else (∑ k : Fin 128, x0 (ix2 p k) * x1 (ix2 q k)) := by
  unfold k0_pay9
  refine (LibColumnCast.shapeCast_a_a1_apply _ _ p 0).trans ?_
  refine (LibMaxReduce.multiReduction_maximumf_sup _ _ _ _ (ix1 p)).trans ?_
  show (⨆ q : Fin 1024, _) = ⨆ q : Fin 1024, _
  refine iSup_congr fun (q : Fin 1024) => ?_
  rw [lift_ix]
  show Scalar.select (k0_pay7 (F := Ideal) l0 l1 (ix2 p q)) (k0_pay6 (F := Ideal) x0 x1 (ix2 p q) - Cert.Triplet.two)
      (k0_pay6 (F := Ideal) x0 x1 (ix2 p q)) = _
  rw [pay6_apply]
  by_cases h : l0 (ix2 p (0 : Fin 1)) = l1 (ix2 (0 : Fin 1) q)
  · rw [if_pos h, (pay7_eq_one_iff l0 l1 p q).mpr h, select_one]
  · rw [if_neg h, eq_zero_of_ne_one (fun hm => h ((pay7_eq_one_iff l0 l1 p q).mp hm)), select_zero]

end Cert.Triplet.Tile

end
-- ==== Proof.LibExtremaRange.lean ====
/-
  Infima and suprema of an extended-real family over a range of consecutive indices of `Fin N`.

  For `f : Fin N → EReal`, `infRange f lo hi` is the infimum of `f k` over the indices with `lo ≤ k < hi`, and
  `supRange f lo hi` the supremum. An empty range gives `⊤` (resp. `⊥`); two adjacent ranges combine by `min`
  (resp. `max`); a range of `W` consecutive indices is the infimum (supremum) over `Fin W` of the shifted family;
  the range `[0, N)` is the whole infimum (supremum). These are what a running minimum or maximum, accumulated
  block of rows after block of rows, needs in order to be named in closed form.
-/
import Mathlib.Data.EReal.Basic

namespace Cert.LibExtremaRange

/-- The infimum of `f` over the indices `k` with `lo ≤ k < hi`. -/
noncomputable def infRange {N : ℕ} (f : Fin N → EReal) (lo hi : ℕ) : EReal :=
  ⨅ (k : Fin N) (_ : lo ≤ k.val ∧ k.val < hi), f k

/-- The supremum of `f` over the indices `k` with `lo ≤ k < hi`. -/
noncomputable def supRange {N : ℕ} (f : Fin N → EReal) (lo hi : ℕ) : EReal :=
  ⨆ (k : Fin N) (_ : lo ≤ k.val ∧ k.val < hi), f k

theorem le_infRange_iff {N : ℕ} (f : Fin N → EReal) (lo hi : ℕ) (c : EReal) :
    c ≤ infRange f lo hi ↔ ∀ k : Fin N, lo ≤ k.val → k.val < hi → c ≤ f k := by
  unfold infRange
  rw [le_iInf₂_iff]
  exact ⟨fun h k h1 h2 => h k ⟨h1, h2⟩, fun h k hk => h k hk.1 hk.2⟩

theorem supRange_le_iff {N : ℕ} (f : Fin N → EReal) (lo hi : ℕ) (c : EReal) :
    supRange f lo hi ≤ c ↔ ∀ k : Fin N, lo ≤ k.val → k.val < hi → f k ≤ c := by
  unfold supRange
  rw [iSup₂_le_iff]
  exact ⟨fun h k h1 h2 => h k ⟨h1, h2⟩, fun h k hk => h k hk.1 hk.2⟩

/-- Over an empty range the infimum is `⊤`. -/
theorem infRange_empty {N : ℕ} (f : Fin N → EReal) (lo hi : ℕ) (h : hi ≤ lo) : infRange f lo hi = ⊤ := by
  refine top_unique ((le_infRange_iff f lo hi ⊤).2 fun k h1 h2 => ?_)
  omega

/-- Over an empty range the supremum is `⊥`. -/
theorem supRange_empty {N : ℕ} (f : Fin N → EReal) (lo hi : ℕ) (h : hi ≤ lo) : supRange f lo hi = ⊥ := by
  refine bot_unique ((supRange_le_iff f lo hi ⊥).2 fun k h1 h2 => ?_)
  omega

/-- Two adjacent ranges: the infimum over `[lo, hi)` is the minimum of those over `[lo, mid)` and `[mid, hi)`. -/
theorem infRange_append {N : ℕ} (f : Fin N → EReal) (lo mid hi : ℕ) (h1 : lo ≤ mid) (h2 : mid ≤ hi) :
    min (infRange f lo mid) (infRange f mid hi) = infRange f lo hi := by
  refine eq_of_forall_le_iff fun c => ?_
  rw [le_min_iff, le_infRange_iff, le_infRange_iff, le_infRange_iff]
  constructor
  · rintro ⟨ha, hb⟩ k hk1 hk2
    by_cases hm : k.val < mid
    · exact ha k hk1 hm
    · exact hb k (by omega) hk2
  · intro hh
    exact ⟨fun k hk1 hk2 => hh k hk1 (by omega), fun k hk1 hk2 => hh k (by omega) hk2⟩

/-- Two adjacent ranges: the supremum over `[lo, hi)` is the maximum of those over `[lo, mid)` and `[mid, hi)`. -/
theorem supRange_append {N : ℕ} (f : Fin N → EReal) (lo mid hi : ℕ) (h1 : lo ≤ mid) (h2 : mid ≤ hi) :
    max (supRange f lo mid) (supRange f mid hi) = supRange f lo hi := by
  refine eq_of_forall_ge_iff fun c => ?_
  rw [max_le_iff, supRange_le_iff, supRange_le_iff, supRange_le_iff]
  constructor
  · rintro ⟨ha, hb⟩ k hk1 hk2
    by_cases hm : k.val < mid
    · exact ha k hk1 hm
    · exact hb k (by omega) hk2
  · intro hh
    exact ⟨fun k hk1 hk2 => hh k hk1 (by omega), fun k hk1 hk2 => hh k (by omega) hk2⟩

/-- A range of `W` consecutive indices starting at `lo`: the infimum over `Fin W` of the shifted family. -/
theorem infRange_block {N : ℕ} (f : Fin N → EReal) (lo W : ℕ) (h : lo + W ≤ N) :
    infRange f lo (lo + W) = ⨅ q : Fin W, f ⟨lo + q.val, by have := q.isLt; omega⟩ := by
  refine eq_of_forall_le_iff fun c => ?_
  rw [le_infRange_iff, le_iInf_iff]
  constructor
  · intro hh q
    exact hh _ (by simp only; omega) (by have := q.isLt; simp only; omega)
  · intro hh k hk1 hk2
    have h3 := hh ⟨k.val - lo, by omega⟩
    have e : (⟨lo + (k.val - lo), by omega⟩ : Fin N) = k := Fin.ext (by simp only; omega)
    rw [e] at h3
    exact h3

/-- A range of `W` consecutive indices starting at `lo`: the supremum over `Fin W` of the shifted family. -/
theorem supRange_block {N : ℕ} (f : Fin N → EReal) (lo W : ℕ) (h : lo + W ≤ N) :
    supRange f lo (lo + W) = ⨆ q : Fin W, f ⟨lo + q.val, by have := q.isLt; omega⟩ := by
  refine eq_of_forall_ge_iff fun c => ?_
  rw [supRange_le_iff, iSup_le_iff]
  constructor
  · intro hh q
    exact hh _ (by simp only; omega) (by have := q.isLt; simp only; omega)
  · intro hh k hk1 hk2
    have h3 := hh ⟨k.val - lo, by omega⟩
    have e : (⟨lo + (k.val - lo), by omega⟩ : Fin N) = k := Fin.ext (by simp only; omega)
    rw [e] at h3
    exact h3

/-- The range `[0, N)` is every index. -/
theorem infRange_all {N : ℕ} (f : Fin N → EReal) : infRange f 0 N = ⨅ k, f k := by
  refine eq_of_forall_le_iff fun c => ?_
  rw [le_infRange_iff, le_iInf_iff]
  exact ⟨fun hh k => hh k (Nat.zero_le _) k.isLt, fun hh k _ _ => hh k⟩

/-- The range `[0, N)` is every index. -/
theorem supRange_all {N : ℕ} (f : Fin N → EReal) : supRange f 0 N = ⨆ k, f k := by
  refine eq_of_forall_ge_iff fun c => ?_
  rw [supRange_le_iff, iSup_le_iff]
  exact ⟨fun hh k => hh k (Nat.zero_le _) k.isLt, fun hh k _ _ => hh k⟩

end Cert.LibExtremaRange
-- ==== Proof.KernelIdealValue.lean ====
/-
  What the kernel region leaves in the loss column, on the extended reals.

  Fix a table row `r` and write `fpos r s` for the similarity of rows `r` and `s`, pushed up by 2 unless `s` is
  another row with `r`'s label, and `fneg r s` for the similarity pushed down by 2 when `s` has `r`'s label.  The
  tile at point `t` contributes, for row `p` of its row block, the infimum of `fpos` and the supremum of `fneg`
  over the 1024 table rows behind its columns.  Folding the tiles of one row block from left to right, the running
  minimum after column block `j` is the infimum over the first `(j + 1) * 1024` table rows (an infimum over adjacent
  ranges is the minimum of the ranges' infima; the fold starts from the top element), and likewise the running
  maximum.  After the last column block both range over all 8192 rows, so what is stored is the row's loss of the
  specification, and the row blocks' write-backs tile the loss column.
-/
import proofs.«169116_j80736795230438_1_alg».proof.Proof.KernelIdealFrame
import proofs.«169116_j80736795230438_1_alg».proof.Proof.KernelIdealPieces
import proofs.«169116_j80736795230438_1_alg».proof.Proof.KernelIdealBlocks
import proofs.«169116_j80736795230438_1_alg».proof.Proof.TileUpdate
import proofs.«169116_j80736795230438_1_alg».proof.Proof.TileExtrema
import proofs.«169116_j80736795230438_1_alg».proof.Proof.Spec
import proofs.«169116_j80736795230438_1_alg».proof.Proof.LibExtremaRange
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx Cert.LibExtremaRange Cert.Triplet

variable (m : (ℓ : Loc nD τ sig) → Buf (Elt Ideal) ℓ)

/-! ## The table, the labels, and the masked similarities -/

/-- The table the region finds (the normalised embeddings, rounded to bf16: at exact values the normalised embeddings). -/
def xk (c : Dev nD) : Fin 8192 → Fin 128 → EReal := fun r k => V m c main_v5 (ix2 r k)
/-- The labels. -/
def labk (c : Dev nD) : Fin 8192 → BitVec 32 := fun r => m ((c : Thread nD τ).loc main_arg1) (ix1 r)

/-- The entry the minimum is taken over. -/
def fpos (c : Dev nD) (r s : Fin 8192) : EReal :=
  if labk m c r = labk m c s ∧ r ≠ s then sim (xk m c) r s else sim (xk m c) r s + two
/-- The entry the maximum is taken over. -/
def fneg (c : Dev nD) (r s : Fin 8192) : EReal :=
  if labk m c r = labk m c s then sim (xk m c) r s - two else sim (xk m c) r s

theorem hardPos_eq (c : Dev nD) (r : Fin 8192) : hardPos (xk m c) (labk m c) r = ⨅ s, fpos m c r s := rfl
theorem hardNeg_eq (c : Dev nD) (r : Fin 8192) : hardNeg (xk m c) (labk m c) r = ⨆ s, fneg m c r s := rfl

/-! ## One tile -/

/-- The row block and the column block of the table at point `t`, at their literal shape. -/
abbrev blkRows (c : Dev nD) (t : Fin cfg0.N) : Vec Ideal S1024x128 .bf16 := iblk m c 0 t
abbrev blkCols (c : Dev nD) (t : Fin cfg0.N) : Vec Ideal S1024x128 .bf16 := iblk m c 1 t
abbrev blkLabCol (c : Dev nD) (t : Fin cfg0.N) : Vec Ideal S1024x1 .i32 := iblk m c 2 t
abbrev blkLabRow (c : Dev nD) (t : Fin cfg0.N) : Vec Ideal S1x1024 .i32 := iblk m c 3 t

/-- The tile's inner product at (p, q) is the similarity of the table rows behind them. -/
theorem tile_sim (c : Dev nD) (t : Fin cfg0.N) (p q : Fin 1024) :
    (∑ k : Fin 128, blkRows m c t (ix2 p k) * blkCols m c t (ix2 q k)) = sim (xk m c) (rowOf t p) (colOf t q) := by
  unfold sim xk
  refine Finset.sum_congr rfl fun k _ => ?_
  have e0 : blkRows m c t (ix2 p k) = V m c main_v5 (ix2 (rowOf t p) k) := iblk0_apply m c t p k
  have e1 : blkCols m c t (ix2 q k) = V m c main_v5 (ix2 (colOf t q) k) := iblk1_apply m c t q k
  rw [e0, e1]

theorem tile_labels (c : Dev nD) (t : Fin cfg0.N) (p q : Fin 1024) :
    (blkLabCol m c t (ix2 p (0 : Fin 1)) = blkLabRow m c t (ix2 (0 : Fin 1) q)) ↔ labk m c (rowOf t p) = labk m c (colOf t q) := by
  have ea : blkLabCol m c t (ix2 p (0 : Fin 1)) = labk m c (rowOf t p) := (iblk2_apply m c t p).trans (V_labelCol m c (rowOf t p))
  have eb : blkLabRow m c t (ix2 (0 : Fin 1) q) = labk m c (colOf t q) := (iblk3_apply m c t q).trans (V_labelRow m c (colOf t q))
  rw [ea, eb]

theorem tile_offdiag (t : Fin cfg0.N) (p q : Fin 1024) :
    ((grid0.coords t 0).val * 1024 + p.val ≠ (grid0.coords t 1).val * 1024 + q.val) ↔ rowOf t p ≠ colOf t q := by
  obtain ⟨-, -, -, -, -, -, -, -, -, -, e0, e1⟩ := idx_facts t
  rw [Ne, Ne, Fin.ext_iff, rowOf_val, colOf_val, e0, e1]

/-- The tile's masked row minimum at row `p`: the infimum of `fpos` over the table rows behind its columns. -/
theorem tileMin_apply (c : Dev nD) (t : Fin cfg0.N) (p : Fin 1024) :
    k0_pay8 (F := Ideal) (grid0.coords t) (iblk m c 0 t) (iblk m c 1 t) (iblk m c 2 t) (iblk m c 3 t) (ix2 p (0 : Fin 1))
      = infRange (fpos m c (rowOf t p)) (t.val % 8 * 1024) (t.val % 8 * 1024 + 1024) := by
  have hb : t.val % 8 * 1024 + 1024 ≤ 8192 := by omega
  rw [Tile.pay8_apply, infRange_block _ _ 1024 hb]
  refine iInf_congr fun q => ?_
  rw [tile_sim]
  unfold fpos
  exact if_congr (and_congr (tile_labels m c t p q) (tile_offdiag t p q)) rfl rfl

/-- The tile's masked row maximum at row `p`. -/
theorem tileMax_apply (c : Dev nD) (t : Fin cfg0.N) (p : Fin 1024) :
    k0_pay9 (F := Ideal) (iblk m c 0 t) (iblk m c 1 t) (iblk m c 2 t) (iblk m c 3 t) (ix2 p (0 : Fin 1))
      = supRange (fneg m c (rowOf t p)) (t.val % 8 * 1024) (t.val % 8 * 1024 + 1024) := by
  have hb : t.val % 8 * 1024 + 1024 ≤ 8192 := by omega
  rw [Tile.pay9_apply, supRange_block _ _ 1024 hb]
  refine iSup_congr fun q => ?_
  rw [tile_sim]
  unfold fneg
  exact if_congr (tile_labels m c t p q) rfl rfl

/-! ## What each case leaves, as the body's named values -/

theorem minA_eq (c : Dev nD) (t : Fin cfg0.N) (h0 : t.val % 8 = 0) :
    minA m c t h0 = k0_pay1 (k0_pay8 (grid0.coords t) (iblk m c 0 t) (iblk m c 1 t) (iblk m c 2 t) (iblk m c 3 t)) (k0_pay4 (F := Ideal)) := by
  unfold minA; rw [View.read_writes_eq_canon _ _ _ (scoverA_min m c t h0)]; exact pieceA_min ..
theorem maxA_eq (c : Dev nD) (t : Fin cfg0.N) (h0 : t.val % 8 = 0) :
    maxA m c t h0 = k0_pay2 (k0_pay9 (iblk m c 0 t) (iblk m c 1 t) (iblk m c 2 t) (iblk m c 3 t)) (k0_pay5 (F := Ideal)) := by
  unfold maxA; rw [View.read_writes_eq_canon _ _ _ (scoverA_max m c t h0)]; exact pieceA_max ..
theorem minB_eq (c : Dev nD) (t : Fin cfg0.N) (h0 : ¬t.val % 8 = 0) (h1 : ¬t.val % 8 = 7) (xs0 xs1 : Vec Ideal S1024x1 .f32) :
    minB m c t h0 h1 xs0 xs1 = k0_pay1 (k0_pay8 (grid0.coords t) (iblk m c 0 t) (iblk m c 1 t) (iblk m c 2 t) (iblk m c 3 t)) xs0 := by
  unfold minB; rw [View.read_writes_eq_canon _ _ _ (scoverB_min m c t h0 h1 xs0 xs1)]; exact pieceB_min ..
theorem maxB_eq (c : Dev nD) (t : Fin cfg0.N) (h0 : ¬t.val % 8 = 0) (h1 : ¬t.val % 8 = 7) (xs0 xs1 : Vec Ideal S1024x1 .f32) :
    maxB m c t h0 h1 xs0 xs1 = k0_pay2 (k0_pay9 (iblk m c 0 t) (iblk m c 1 t) (iblk m c 2 t) (iblk m c 3 t)) xs1 := by
  unfold maxB; rw [View.read_writes_eq_canon _ _ _ (scoverB_max m c t h0 h1 xs0 xs1)]; exact pieceB_max ..
theorem minC_eq (c : Dev nD) (t : Fin cfg0.N) (h1 : t.val % 8 = 7) (xs0 xs1 : Vec Ideal S1024x1 .f32) :
    minC m c t h1 xs0 xs1 = k0_pay1 (k0_pay8 (grid0.coords t) (iblk m c 0 t) (iblk m c 1 t) (iblk m c 2 t) (iblk m c 3 t)) xs0 := by
  unfold minC; rw [View.read_writes_eq_canon _ _ _ (scoverC_min m c t h1 xs0 xs1)]; exact pieceC_min ..
theorem maxC_eq (c : Dev nD) (t : Fin cfg0.N) (h1 : t.val % 8 = 7) (xs0 xs1 : Vec Ideal S1024x1 .f32) :
    maxC m c t h1 xs0 xs1 = k0_pay2 (k0_pay9 (iblk m c 0 t) (iblk m c 1 t) (iblk m c 2 t) (iblk m c 3 t)) xs1 := by
  unfold maxC; rw [View.read_writes_eq_canon _ _ _ (scoverC_max m c t h1 xs0 xs1)]; exact pieceC_max ..
theorem outC_eq (c : Dev nD) (t : Fin cfg0.N) (h1 : t.val % 8 = 7) (xs0 xs1 : Vec Ideal S1024x1 .f32) :
    outC m c t h1 xs0 xs1 = k0_pay3 (maxC m c t h1 xs0 xs1) (minC m c t h1 xs0 xs1) := by
  rw [maxC_eq, minC_eq]
  unfold outC; rw [View.read_writes_eq_canon _ _ _ (coverC_out m c t h1 xs0 xs1)]; exact pieceC_out ..

attribute [local irreducible] minA maxA minB maxB minC maxC outC outIdle outsAt iblk

/-! ## The fold over the column blocks -/

/-- One step of the running minimum: the column held the infimum over the table rows before this tile's. -/
theorem stepMin (c : Dev nD) (t : Fin cfg0.N) (p : Fin 1024) (xs0 : Vec Ideal S1024x1 .f32)
    (hprev : xs0 (ix2 p (0 : Fin 1)) = infRange (fpos m c (rowOf t p)) 0 (t.val % 8 * 1024)) :
    k0_pay1 (F := Ideal) (k0_pay8 (grid0.coords t) (iblk m c 0 t) (iblk m c 1 t) (iblk m c 2 t) (iblk m c 3 t)) xs0 (ix2 p (0 : Fin 1))
      = infRange (fpos m c (rowOf t p)) 0 (t.val % 8 * 1024 + 1024) := by
  rw [Tile.pay1_apply, tileMin_apply, hprev]
  exact infRange_append _ 0 _ _ (Nat.zero_le _) (Nat.le_add_right _ _)

theorem stepMax (c : Dev nD) (t : Fin cfg0.N) (p : Fin 1024) (xs1 : Vec Ideal S1024x1 .f32)
    (hprev : xs1 (ix2 p (0 : Fin 1)) = supRange (fneg m c (rowOf t p)) 0 (t.val % 8 * 1024)) :
    k0_pay2 (F := Ideal) (k0_pay9 (iblk m c 0 t) (iblk m c 1 t) (iblk m c 2 t) (iblk m c 3 t)) xs1 (ix2 p (0 : Fin 1))
      = supRange (fneg m c (rowOf t p)) 0 (t.val % 8 * 1024 + 1024) := by
  rw [Tile.pay2_apply, tileMax_apply, hprev]
  exact supRange_append _ 0 _ _ (Nat.zero_le _) (Nat.le_add_right _ _)

/-- After point `n` the running minimum (maximum) of row `p` is the infimum of `fpos` (supremum of `fneg`) over
    the table rows behind the column blocks visited so far in this row block. -/
theorem scratch_at (c : Dev nD) (n : ℕ) : ∀ (hn : n < cfg0.N) (p : Fin 1024),
    (outsAt m c n hn).2.1 (ix2 p (0 : Fin 1)) = infRange (fpos m c (rowOf ⟨n, hn⟩ p)) 0 (n % 8 * 1024 + 1024)
    ∧ (outsAt m c n hn).2.2 (ix2 p (0 : Fin 1)) = supRange (fneg m c (rowOf ⟨n, hn⟩ p)) 0 (n % 8 * 1024 + 1024) := by
  induction n with
  | zero =>
    intro hn p
    have h0 : (⟨0, hn⟩ : Fin cfg0.N).val % 8 = 0 := Nat.zero_mod _
    rw [outsAt_A m c ⟨0, hn⟩ h0]
    refine ⟨?_, ?_⟩
    · dsimp only
      rw [minA_eq]
      refine stepMin m c ⟨0, hn⟩ p _ ?_
      rw [Tile.pay4_apply, infRange_empty _ _ _ (by show (0 : ℕ) % 8 * 1024 ≤ 0; omega)]
    · dsimp only
      rw [maxA_eq]
      refine stepMax m c ⟨0, hn⟩ p _ ?_
      rw [Tile.pay5_apply, supRange_empty _ _ _ (by show (0 : ℕ) % 8 * 1024 ≤ 0; omega)]
  | succ n ih =>
    intro hn p
    have hN : n + 1 < 64 := lt_of_lt_of_eq hn (show cfg0.N = 64 from N_0)
    by_cases h0 : (n + 1) % 8 = 0
    · have h0' : (⟨n + 1, hn⟩ : Fin cfg0.N).val % 8 = 0 := h0
      rw [outsAt_A m c ⟨n + 1, hn⟩ h0']
      refine ⟨?_, ?_⟩
      · dsimp only
        rw [minA_eq]
        refine stepMin m c ⟨n + 1, hn⟩ p _ ?_
        rw [Tile.pay4_apply, infRange_empty _ _ _ (by show (n + 1) % 8 * 1024 ≤ 0; omega)]
      · dsimp only
        rw [maxA_eq]
        refine stepMax m c ⟨n + 1, hn⟩ p _ ?_
        rw [Tile.pay5_apply, supRange_empty _ _ _ (by show (n + 1) % 8 * 1024 ≤ 0; omega)]
    · have h0' : ¬(⟨n + 1, hn⟩ : Fin cfg0.N).val % 8 = 0 := h0
      obtain ⟨ihmin, ihmax⟩ := ih (Nat.lt_of_succ_lt hn) p
      have hrow : rowOf ⟨n, Nat.lt_of_succ_lt hn⟩ p = rowOf ⟨n + 1, hn⟩ p := by
        apply Fin.ext; rw [rowOf_val, rowOf_val]; show n / 8 * 1024 + p.val = (n + 1) / 8 * 1024 + p.val; omega
      have hrange : n % 8 * 1024 + 1024 = (n + 1) % 8 * 1024 := by omega
      rw [hrow, hrange] at ihmin ihmax
      by_cases h1 : (n + 1) % 8 = 7
      · have h1' : (⟨n + 1, hn⟩ : Fin cfg0.N).val % 8 = 7 := h1
        rw [outsAt_C m c ⟨n + 1, hn⟩ h1']
        refine ⟨?_, ?_⟩
        · dsimp only
          rw [minC_eq]
          exact stepMin m c ⟨n + 1, hn⟩ p _ ihmin
        · dsimp only
          rw [maxC_eq]
          exact stepMax m c ⟨n + 1, hn⟩ p _ ihmax
      · have h1' : ¬(⟨n + 1, hn⟩ : Fin cfg0.N).val % 8 = 7 := h1
        rw [outsAt_B m c ⟨n + 1, hn⟩ h0' h1']
        refine ⟨?_, ?_⟩
        · dsimp only
          rw [minB_eq]
          exact stepMin m c ⟨n + 1, hn⟩ p _ ihmin
        · dsimp only
          rw [maxB_eq]
          exact stepMax m c ⟨n + 1, hn⟩ p _ ihmax

/-! ## The loss column -/

/-- The loss column the specification describes. -/
def lossCol (c : Dev nD) : S8192x1.Idx → EReal := fun i => rowLoss (xk m c) (labk m c) ⟨(i 0).val, idx2_lt0 i⟩

/-- At the last column block the output's buffer holds the row block's losses. -/
theorem out_at (c : Dev nD) (t : Fin cfg0.N) (h1 : t.val % 8 = 7) (p : Fin 1024) :
    (outsAt m c t.val t.isLt).1 (ix2 p (0 : Fin 1)) = rowLoss (xk m c) (labk m c) (rowOf t p) := by
  obtain ⟨hmin, hmax⟩ := scratch_at m c t.val t.isLt p
  have hall : t.val % 8 * 1024 + 1024 = 8192 := by omega
  rw [hall, infRange_all] at hmin
  rw [hall, supRange_all] at hmax
  rw [outsAt_C m c t h1] at hmin hmax ⊢
  dsimp only at hmin hmax ⊢
  rw [outC_eq, Tile.pay3_apply]
  unfold rowLoss
  rw [hardPos_eq, hardNeg_eq]
  exact congrArg₂ (fun a b => a + margin - b) hmax hmin

end Cert.KernelIdeal.Hand

end
-- ==== Proof.KernelIdealColumn.lean ====
import proofs.«169116_j80736795230438_1_alg».proof.Proof.KernelIdealBlocks
import Idealize.ShloMosaic.PureOps.Ideal.Laws
import Idealize.ShloMosaic.Lib.ValueIdx
import Idealize.ShloMosaic.Lib.Pipeline.Value
/-
  The loss column: which rows each point writes back, that the writes cover the column, and its total.

  The output window stages blocks of `1024` rows and one column of the `8192 × 1` loss column.  At point `t` its
  block is row block `t / 8`, rows `[t/8 * 1024, t/8 * 1024 + 1024)`, and the block is written back at the last
  column step, `t % 8 = 7`.  Row `r` of the column therefore lies in the block written back at the point
  `r / 1024 * 8 + 7`: every entry of the column is written.  Summing the column over both of its axes from the zero
  literal is the sum over its `8192` rows, the second axis having the one coordinate `0`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- An index of the loss column is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- Every entry of the loss column is in a block that is written back: row `r` in the block of the point
    `r / 1024 * 8 + 7`, the last column step of row block `r / 1024`. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ : ∃ t : Fin cfg0.N, t.val = (i 0).val / 1024 * 8 + 7 :=
    ⟨⟨(i 0).val / 1024 * 8 + 7, lt_of_lt_of_eq (by omega : (i 0).val / 1024 * 8 + 7 < 64) (show cfg0.N = 64 from N_0).symm⟩, rfl⟩
  refine ⟨t, (flush0_4 t).2 (by omega), ?_⟩
  rw [mem_blk4]
  obtain ⟨-, -, -, -, -, -, -, -, e0, e1, -⟩ := idx_facts t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The sum of a column over both of its axes, from the zero literal, is the sum of its `8192` rows. -/
theorem sum_column (f : Fin 8192 → EReal) (j : S_.Idx) :
    Host.reduceAdd (F := Ideal) (fun i : S8192x1.Idx => f ⟨(i 0).val, ValueIdx.idx2_lt0 i⟩) (constant (F := Ideal) S_ .f32 0x00000000#32) reducesTo_S8192x1_S_d0_1 h_S_ j = ∑ r : Fin 8192, f r := by
  simp only [Host.reduceAdd, Ideal.hostReduceAdd_def]
  rw [Ideal.hostReduceAdd_total reducesTo_S8192x1_S_d0_1 (fun b => b.elim0) _ _ j]
  show Ideal.ofBits .f32 0x00000000#32 + _ = _
  rw [Ideal.ofBits_zero_f32, zero_add, ValueIdx.sum_idx2]
  refine Finset.sum_congr rfl fun r _ => ?_
  rw [Fin.sum_univ_one]

end Cert.KernelIdeal.Hand

end
-- ==== Proof.KernelIdealLaunch.lean ====
/-
  The launch of the kernel region: from the kernel body's obligation to the run of the whole program.

  The region's first two input windows read one array, so the array's full share is split between them, a half
  each; the other windows hold their arrays whole.  Around the region the program runs host operations: those
  before it make the arrays the region finds, those after it sum the region's output into the program's result.
-/
import proofs.«169116_j80736795230438_1_alg».proof.Proof.KernelIdealEntry

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The program around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operations after it: it reduces to
    the region continued by the later operations, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The windows' arrays, one by one -/

variable {m} in
/-- The pipeline's arrays at the shares of the proof data: the shared array a half for each of its two windows, the
    other three whole. -/
theorem arrays_chain {c : Dev nD} (dat : Dat τ (Elt F) Unit ℕ (UR sig nD τ) ℕ cfg0 c)
    (hq : dat.q 0 = fullShare.left ∧ dat.q 1 = fullShare.right ∧ dat.q 2 = fullShare ∧ dat.q 3 = fullShare)
    (G : (w : Fin cfg0.W) → Buf (Elt F) ((cfg0.win w).arr.view.loc (c.tc : Thread nD τ))) :
    (dat.arrays G : sProp 𝕄)
      = iprop((((c.tc : Thread nD τ).loc main_v5) ↦{fullShare.left} G 0) ∗ (((c.tc : Thread nD τ).loc main_v5) ↦{fullShare.right} G 1)
          ∗ (((c.tc : Thread nD τ).loc main_v6) ↦{fullShare} G 2) ∗ (((c.tc : Thread nD τ).loc main_v7) ↦{fullShare} G 3)
          ∗ (((c.tc : Thread nD τ).loc main_v8) ↦{fullShare} G 4)) := by
  obtain ⟨h0, h1, h2, h3⟩ := hq
  unfold Dat.arrays
  rw [bigSep_W0, (arr_whole0 0).set_eq_univ, (arr_whole0 2).set_eq_univ, (arr_whole0 3).set_eq_univ, (arr_whole0 4).set_eq_univ]
  unfold Dat.share
  rw [if_neg (by decide), if_neg (by decide), if_neg (by decide), if_neg (by decide), if_pos (by decide), h0, h1, h2, h3]

variable {m} in
/-- At the region's entry the buffers behind the arrays, each whole, make the pipeline's arrays: the shared array's
    full share is dealt a half to each of its two windows. -/
theorem arrays_entry {c : Dev nD} (dat : Dat τ (Elt F) Unit ℕ (UR sig nD τ) ℕ cfg0 c)
    (hA : ∀ w, dat.A w = V m c (Pipeline.arrRef spec0 w))
    (hq : dat.q 0 = fullShare.left ∧ dat.q 1 = fullShare.right ∧ dat.q 2 = fullShare ∧ dat.q 3 = fullShare) :
    (Pipeline.arrBufs spec0 c (V m c) : sProp 𝕄) ⊢ dat.arrays (dat.arrAt · 0) := by
  have e0 : dat.arrAt 0 0 = V m c main_v5 := hA 0
  have e1 : dat.arrAt 1 0 = V m c main_v5 := hA 1
  have e2 : dat.arrAt 2 0 = V m c main_v6 := hA 2
  have e3 : dat.arrAt 3 0 = V m c main_v7 := hA 3
  have e4 : dat.arrAt 4 0 = V m c main_v8 := hA 4
  have hL : (Pipeline.arrBufs spec0 c (V m c) : sProp 𝕄)
      = iprop((((c.tc : Thread nD τ).loc main_v5) ↦{fullShare} V m c main_v5) ∗ (((c.tc : Thread nD τ).loc main_v6) ↦{fullShare} V m c main_v6)
          ∗ (((c.tc : Thread nD τ).loc main_v7) ↦{fullShare} V m c main_v7) ∗ (((c.tc : Thread nD τ).loc main_v8) ↦{fullShare} V m c main_v8)) :=
    bigSep_eq_bigSepL_of_eq [main_v5, main_v6, main_v7, main_v8] (by decide) (by decide) _
  rw [arrays_chain dat hq, hL]
  beta_reduce
  rw [e0, e1, e2, e3, e4]
  iintro ⟨H5, H6, H7, H8⟩
  ihave H5' := (pointsTo_share (PosShare.mem_left_op_right fullShare)).1 $$ H5
  icases H5' with ⟨Hl, Hr⟩
  isplitl [Hl]; · iexact Hl
  isplitl [Hr]; · iexact Hr
  isplitl [H6]; · iexact H6
  isplitl [H7]; · iexact H7
  iexact H8

/-! ## The host operations after the region -/

/-- The windows but the first: their arrays are pairwise distinct, and they are all the arrays. -/
abbrev winsD : Fin 4 → Pipeline.WinSpec sig grid0.rank := fun w => spec0 w.succ
theorem winsD_inj : Function.Injective (Pipeline.arrRef winsD) := by decide
theorem winsD_unscoped : ∀ w, (Pipeline.arrRef winsD w).isScoped = false := by decide
theorem winsD_image : Finset.univ.image (Pipeline.arrRef winsD) = Finset.univ.image (Pipeline.arrRef spec0) := by decide

/-- Four windows conjoined one by one. -/
theorem bigSep_four {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- The buffers that bypass the region are the same for the four windows as for the five. -/
theorem rest_winsD (c : Dev nD) (X : (b : Ref sig .tc) → Buf (Elt F) ((c.tc : Thread nD τ).loc b)) :
    (Pipeline.unscopedRestP Pipeline.Prefetch.none winsD c X : sProp 𝕄) = Pipeline.unscopedRest spec0 c X := by
  rw [Pipeline.unscopedRestP_none]; unfold Pipeline.unscopedRest; rw [winsD_image]

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none winsD := by
  rw [Pipeline.tailRefs_none winsD winsD_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline. -/
theorem sfx_keeps : ∀ ops ∈ ([hostOps1] : List (List (HloOp τ sig (Elt F)))), ∀ op ∈ ops,
    ∀ w, Proc.devRef .tc (Pipeline.arrRef winsD w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The four windows' arrays when the region is left. -/
abbrev arrsOut {c : Dev nD} (dat : Dat τ (Elt F) Unit ℕ (UR sig nD τ) ℕ cfg0 c) :
    (w : Fin 4) → Buf (Elt F) ((winsD w).arr.view.loc (c.tc : Thread nD τ)) := fun w => dat.arrAt w.succ cfg0.N

/-- What each unscoped buffer holds at the end: the operations after the region, run from the contents the region leaves
    (its arrays as the write-backs left them, every other buffer as the region found it). -/
def afterV (c : Dev nD) (dat : Dat τ (Elt F) Unit ℕ (UR sig nD τ) ℕ cfg0 c) (b : Ref sig .tc) :
    Buf (Elt F) ((c.tc : Thread nD τ).loc b) :=
  StableHlo.after (List.flatten [hostOps1]) (Pipeline.withArrays winsD c (V0 m c) (arrsOut dat)) (Proc.devRef .tc b)

/-- The program's result is the sum of the region's output. -/
theorem afterV_result (c : Dev nD) (dat : Dat τ (Elt F) Unit ℕ (UR sig nD τ) ℕ cfg0 c) :
    afterV m c dat main_v9
      = Host.reduceAdd (F := F) (dat.arrAt 4 cfg0.N) (constant S_ .f32 0x00000000#32) reducesTo_S8192x1_S_d0_1 h_S_ := by
  have h8 : Pipeline.withArrays winsD c (V0 m c) (arrsOut dat) (Proc.devRef .tc main_v8) = dat.arrAt 4 cfg0.N :=
    Pipeline.withArrays_arr winsD winsD_inj c (V0 m c) (arrsOut dat) 3
  unfold afterV
  simp only [hostOps1, List.flatten_cons, List.flatten_nil, List.append_nil]
  after_results
  rw [h8]

/-- No host operation before the region writes an argument. -/
theorem V_arg0 (c : Dev nD) : V m c main_arg0 = m ((c.tc : Thread nD τ).loc main_arg0) := by
  dsimp only [V, V0]
  simp only [hostOps0, hostOps0_1, List.flatten_cons, List.flatten_nil, List.append_nil, List.cons_append, List.nil_append]
  after_results
theorem V_arg1 (c : Dev nD) : V m c main_arg1 = m ((c.tc : Thread nD τ).loc main_arg1) := by
  dsimp only [V, V0]
  simp only [hostOps0, hostOps0_1, List.flatten_cons, List.flatten_nil, List.append_nil, List.cons_append, List.nil_append]
  after_results

/-- Nor does the region or any operation after it: the arguments end as they were at the launch. -/
theorem afterV_arg0 (c : Dev nD) (dat : Dat τ (Elt F) Unit ℕ (UR sig nD τ) ℕ cfg0 c) :
    afterV m c dat main_arg0 = m ((c.tc : Thread nD τ).loc main_arg0) := by
  have h : Pipeline.withArrays winsD c (V0 m c) (arrsOut dat) (Proc.devRef .tc main_arg0) = V m c main_arg0 :=
    Pipeline.withArrays_of_ne winsD c (V0 m c) (arrsOut dat) main_arg0 (by decide)
  unfold afterV
  simp only [hostOps1, List.flatten_cons, List.flatten_nil, List.append_nil]
  after_results
  rw [h, V_arg0]
theorem afterV_arg1 (c : Dev nD) (dat : Dat τ (Elt F) Unit ℕ (UR sig nD τ) ℕ cfg0 c) :
    afterV m c dat main_arg1 = m ((c.tc : Thread nD τ).loc main_arg1) := by
  have h : Pipeline.withArrays winsD c (V0 m c) (arrsOut dat) (Proc.devRef .tc main_arg1) = V m c main_arg1 :=
    Pipeline.withArrays_of_ne winsD c (V0 m c) (arrsOut dat) main_arg1 (by decide)
  unfold afterV
  simp only [hostOps1, List.flatten_cons, List.flatten_nil, List.append_nil]
  after_results
  rw [h, V_arg1]

variable {m} in
/-- THE OPERATIONS AFTER THE REGION, run from the region's exit: the shared array's two halves are joined, the operations
    run within the arrays and the bypassing buffers, and the array is dealt again. -/
theorem tail_run {c : Dev nD} (dat : Dat τ (Elt F) Unit ℕ (UR sig nD τ) ℕ cfg0 c)
    (hA : ∀ w, dat.A w = V m c (Pipeline.arrRef spec0 w))
    (hq : dat.q 0 = fullShare.left ∧ dat.q 1 = fullShare.right ∧ dat.q 2 = fullShare ∧ dat.q 3 = fullShare)
    (𝒱₀ : Variants) (Q' : PUnit → sProp 𝕄) :
    iprop((iprop(dat.arrays (dat.arrAt · cfg0.N) ∗ Pipeline.unscopedRest spec0 c (afterV m c dat)) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  have e01 : dat.arrAt 0 cfg0.N = dat.arrAt 1 cfg0.N :=
    ((dat.arrAt_in 0 rfl _).trans (hA 0)).trans ((dat.arrAt_in 1 rfl _).trans (hA 1)).symm
  have h := Pipeline.tail_seqs (Ix := Unit) (Name := ℕ) (U := UR sig nD τ) (Lvl := ℕ) (fun q => (cfgs q).toPCfg (Val := Elt F)) defs₀ 𝒱₀
    Pipeline.Prefetch.none winsD winsD_inj c (V0 m c) (arrsOut dat) [hostOps1] sfx_sub sfx_fresh sfx_keeps Q'
  unfold Pipeline.arrPts at h
  rw [bigSep_four, rest_winsD, rest_winsD] at h
  refine BIBase.Entails.trans ?_ h
  rw [arrays_chain dat hq]
  beta_reduce
  rw [e01]
  iintro ⟨Hk, Hb, ⟨H0, H1, H2, H3, H4⟩, HZ⟩
  isplitl [Hk]
  · iintro ⟨⟨A1, A2, A3, A4⟩, HZ'⟩
    iapply Hk
    ihave A1' := (pointsTo_share (PosShare.mem_left_op_right fullShare)).1 $$ A1
    icases A1' with ⟨Al, Ar⟩
    isplitr [HZ']
    · isplitl [Al]; · iexact Al
      isplitl [Ar]; · iexact Ar
      isplitl [A2]; · iexact A2
      isplitl [A3]; · iexact A3
      iexact A4
    · iexact HZ'
  · isplitl [Hb]; · iexact Hb
    isplitr [HZ]
    · isplitl [H0 H1]
      · iapply (pointsTo_share (PosShare.mem_left_op_right fullShare)).2
        isplitl [H0]; · iexact H0
        iexact H1
      isplitl [H2]; · iexact H2
      isplitl [H3]; · iexact H3
      iexact H4
    · iexact HZ

/-! ## The run -/

-- the launch theorem's implicit arguments are found by unifying its conclusion with this one, which takes unfolding plain
-- definitions in a metavariable's type
set_option backward.isDefEq.respectTransparency.types false in
/-- THE RUN OF THE WHOLE PROGRAM from the kernel body's obligation: every weakly fair execution terminates without a
    fault; the program's result is the sum of the region's output as the proof data computes it, and the two
    arguments end as they were at the launch. -/
theorem run_of_body (m : (ℓ : Loc nD τ sig) → Buf (Elt F) ℓ) (ρ : Dev nD → PrngReg)
    (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q 0 = fullShare.left ∧ (dats 0 c).q 1 = fullShare.right ∧ (dats 0 c).q 2 = fullShare ∧ (dats 0 c).q 3 = fullShare)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v9)
          = Host.reduceAdd (F := F) ((dats 0 c).arrAt 4 cfg0.N) (constant S_ .f32 0x00000000#32) reducesTo_S8192x1_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_entry (dats 0 c) (hA c) (hq c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterV m c (dats 0 c)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run (dats 0 c) (hA c) (hq c) Variants.none Q')
    (QY := fun c s => ∀ b ∈ Pipeline.restRefs sig spec0, s.mem ((c.tc : Thread nD τ).loc b) = afterV m c (dats 0 c) b)
    (hY := fun c s' => by
      iintro ⟨-, HU, HSI⟩
      unfold Pipeline.unscopedRest
      imodintro
      iapply (pointsTo_read_all (Pipeline.restRefs sig spec0) (fun b => (c.tc : Thread nD τ).loc b) (afterV m c (dats 0 c)) s')
      isplitl [HU] <;> iassumption)
    (hQ := fun s h c =>
      ⟨((h c).2.2 main_v9 (Pipeline.mem_restRefs_of main_v9 rfl (by decide))).trans (afterV_result m c (dats 0 c)),
       ((h c).2.2 main_arg0 (Pipeline.mem_restRefs_of main_arg0 rfl (by decide))).trans (afterV_arg0 m c (dats 0 c)),
       ((h c).2.2 main_arg1 (Pipeline.mem_restRefs_of main_arg1 rfl (by decide))).trans (afterV_arg1 m c (dats 0 c))⟩)

end Cert.KernelIdeal.Hand

end
-- ==== Proof.KernelIdealFinal.lean ====
/-
  The kernel program's result.

  Each row block's write-back (at its last column block) is the block of the specification's loss column, and the
  eight write-backs cover the column, so after the region the column is the specification's; the host operations
  after the region sum it, so the program's result is the specification's total of the table and labels the region
  found.  The launch of the region — two of whose windows read the one table, each holding half of it — gives the
  run of the whole program from the body's obligation.
-/
import proofs.«169116_j80736795230438_1_alg».proof.Proof.KernelIdealValue
import proofs.«169116_j80736795230438_1_alg».proof.Proof.KernelIdealColumn
import proofs.«169116_j80736795230438_1_alg».proof.Proof.KernelIdealLaunch

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx Cert.Triplet

variable (m : (ℓ : Loc nD τ sig) → Buf (Elt Ideal) ℓ) (ρ : Dev nD → PrngReg)

/-- What a writing-back point writes back is its block of the loss column. -/
theorem flushed4_eq (c : Dev nD) (t : Fin cfg0.N) (hf : (cfg0.win 4).flush t = true) :
    (dats m 0 c).flushed 4 t = ((cfg0.win 4).blk t).view.read (Elt Ideal) (lossCol m c) := by
  have h1 : t.val % 8 = 7 := (flush0_4 t).mp hf
  show (cfg0.win 4).cut (grid0.coords t) ((dats m 0 c).after 4 t) = _
  rw [after4]
  funext j
  obtain ⟨p, u, rfl⟩ : ∃ (p : Fin 1024) (u : Fin 1), j = ix2 p u := ⟨j 0, j 1, eq_ix2 j⟩
  obtain rfl : u = 0 := Subsingleton.elim _ _
  show (outsAt m c t.val t.isLt).1 (ix2 p (0 : Fin 1)) = lossCol m c (((cfg0.win 4).blk t).view.emb (ix2 p (0 : Fin 1)))
  rw [out_at m c t h1 p]
  unfold lossCol
  refine congrArg (rowLoss (xk m c) (labk m c)) (Fin.ext ?_)
  obtain ⟨-, -, -, -, -, -, -, -, e0, e1, -⟩ := idx_facts t
  show t.val / 8 * 1024 + p.val = win0_4.index t (0 : Fin 2) * 1024 + 1 * p.val
  omega

/-- After the region the loss column is the specification's. -/
theorem final4 (c : Dev nD) : (dats m 0 c).arrAt 4 cfg0.N = lossCol m c :=
  (dats m 0 c).arrAt_eq_of_cover 4 (lossCol m c) (fun t hf => flushed4_eq m c t hf) cover4

/-- The program's run: the result is the specification's total of the table and labels the region found, and the
    arguments are unchanged. -/
theorem run_value : θ_run defs (onTc (τ := τ) (main (F := Ideal))) ⟨m, fun _ => 0, ρ⟩ (fun r => ∀ c : Dev nD,
      r.2.mem ((c.tc : Thread nD τ).loc main_v9) = (fun _ => total (xk m c) (labk m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [final4]
      funext j
      exact sum_column (rowLoss (xk m c) (labk m c)) j), (h c).2⟩)
    (run_of_body m ρ (dats m) (A_eq m) (q_eq m) (fun _ _ => rfl) (fun c => (body_obligation m c).loose) (hin m) (hout m))

end Cert.KernelIdeal.Hand

end
-- ==== Proof.KernelIdealTable.lean ====
/-
  The table the region finds is the reference's normalised table.

  Before the region the host divides every row of the argument table by its Euclidean norm plus a small constant
  (the norm is the square root of the row's sum of squares) and converts the quotient to the 16-bit format.  On the
  extended reals a change of float format is the identity, so the array the region reads is the quotient itself; the
  reference program computes the same quotient by the same operations over the same shapes.
-/
import proofs.«169116_j80736795230438_1_alg».proof.Proof.KernelIdealEntry
import proofs.«169116_j80736795230438_1_alg».proof.Proof.Gen.ReferenceIdeal.Read
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

/-- The row-normalised table as the host's operations compute it from the argument table `a`: every entry divided by
    its row's norm plus the constant, the norm being the square root of the row's sum of squares. -/
def normTable (a : S8192x128.Idx → EReal) : S8192x128.Idx → EReal :=
  Host.divf (F := Ideal) (φ := .f32) a
    (broadcastInDim S8192x128 ![0, 1] bcast_S8192x1_S8192x128_0_1
      (addf (F := Ideal) (φ := .f32)
        (Host.sqrt (F := Ideal) (φ := .f32)
          (broadcastInDim S8192x1 ![0] bcast_S8192_S8192x1_0
            (Host.reduceAdd (F := Ideal) (φ := .f32) (mulf (F := Ideal) (φ := .f32) a a)
              (constant (F := Ideal) S_ .f32 0x00000000#32) reducesTo_S8192x128_S8192_d1 h_S_)))
        (broadcastInDim S8192x1 ![] bcast_S_S8192x1 (constant (F := Ideal) S_ .f32 0x2B8CBCCC#32))))

/-- The array the region reads as the table is the host's normalised table converted to the 16-bit format: the
    contents of the table's buffer after the host operations that precede the region. -/
theorem V_table (m : (ℓ : Loc nD τ sig) → Buf (Elt Ideal) ℓ) (c : Dev nD) :
    (V m c main_v5 : S8192x128.Idx → Elt Ideal .bf16)
      = truncf (F := Ideal) (φ := .f32) .bf16 (normTable (m ((c : Thread nD τ).loc main_arg0))) bitsLt_bf16_f32 := by
  dsimp only [V, V0]
  simp only [hostOps0, hostOps0_1, List.flatten_cons, List.flatten_nil, List.append_nil, List.cons_append, List.nil_append]
  after_results
  unfold normTable
  rfl

/-- On the extended reals the conversion to the 16-bit format changes nothing. -/
theorem truncf_bf16_id (x : S8192x128.Idx → EReal) :
    truncf (F := Ideal) (φ := .f32) .bf16 x bitsLt_bf16_f32 = x := rfl

/-- The host's normalised table is the reference's: the same operations over the same shapes. -/
theorem normTable_eq_ref (a : S8192x128.Idx → EReal) :
    normTable a = Cert.ReferenceIdeal.Read.val_main_v4 (F := Ideal) a := by
  unfold normTable Cert.ReferenceIdeal.Read.val_main_v4 Cert.ReferenceIdeal.Read.val_main_v3
    Cert.ReferenceIdeal.Read.val_main_v2 Cert.ReferenceIdeal.Read.val_main_v1 Cert.ReferenceIdeal.Read.val_main_cst
    Cert.ReferenceIdeal.Read.val_main_v0 Cert.ReferenceIdeal.Read.val_main_call0_v2
    Cert.ReferenceIdeal.Read.val_main_call0_v1 Cert.ReferenceIdeal.Read.val_main_call0_cst
    Cert.ReferenceIdeal.Read.val_main_call0_v0
  rfl

/-- The table the region finds is the reference's normalised table of the argument table. -/
theorem table_eq (m : (ℓ : Loc Cert.KernelIdeal.nD Cert.KernelIdeal.τ Cert.KernelIdeal.sig) → Buf (Elt Ideal) ℓ)
    (c : Dev Cert.KernelIdeal.nD) :
    (V m c Cert.KernelIdeal.main_v5 : Cert.KernelIdeal.S8192x128.Idx → EReal)
      = Cert.ReferenceIdeal.Read.val_main_v4 (F := Ideal)
          (m ((c : Thread Cert.KernelIdeal.nD Cert.KernelIdeal.τ).loc Cert.KernelIdeal.main_arg0)) :=
  ((V_table m c).trans (truncf_bf16_id _)).trans (normTable_eq_ref _)

end Cert.KernelIdeal.Hand

end
-- ==== Proof.RefSim.lean ====
import proofs.«169116_j80736795230438_1_alg».proof.Proof.Gen.ReferenceIdeal.Read
import proofs.«169116_j80736795230438_1_alg».proof.Proof.Spec
/-
  The reference's similarity matrix, read at one entry.

  The reference transposes the normalised table and contracts the table's columns against the transpose's rows.
  At the entry `(r, s)` the contraction reads row `r` of the table on the left and, through the transpose, row `s`
  of the table on the right: the entry is the inner product of rows `r` and `s`.  The normalised table itself is
  never opened; it enters only as the function `(r, k) ↦ table (r, k)`.
-/

noncomputable section

namespace Cert.Triplet.Ref

open Cert.ReferenceIdeal Cert.ReferenceIdeal.Read Idealize.ShloMosaic Idealize.ShloMosaic.ValueIdx

/-- The left operand's index at the entry `(r, s)` and contraction coordinate `k` is `(r, k)`. -/
theorem lidx_entry (r s : Fin 8192) (k : Fin 128) : lidx_main_v6 (ix2 r s) k = ix2 r k :=
  funext fun a => Fin.ext (by match a with | ⟨0, _⟩ => rfl | ⟨1, _⟩ => rfl)

/-- The right operand's index at the entry `(r, s)` and contraction coordinate `k`, carried back through the
    transpose, is `(s, k)`. -/
theorem ridx_entry (r s : Fin 8192) (k : Fin 128) : idx_main_v5 (ridx_main_v6 (ix2 r s) k) = ix2 s k :=
  funext fun a => Fin.ext (by match a with | ⟨0, _⟩ => rfl | ⟨1, _⟩ => rfl)

/-- The similarity matrix at `(r, s)` is the inner product of rows `r` and `s` of the normalised table. -/
theorem sim_entry (a0 : (⟨S8192x128, .f32⟩ : BufTy).Contents (Elt Ideal)) (r s : Fin 8192) :
    val_main_v6 (F := Ideal) a0 (ix2 r s)
      = sim (fun r k => val_main_v4 (F := Ideal) a0 (ix2 r k)) r s := by
  rw [val_main_v6_apply]
  unfold sim
  refine Finset.sum_congr rfl fun k _ => ?_
  rw [val_main_v5_apply, lidx_entry, ridx_entry]

end Cert.Triplet.Ref

end
-- ==== Proof.RefMask.lean ====
import proofs.«169116_j80736795230438_1_alg».proof.Proof.Gen.ReferenceIdeal.Read
/-
  The reference's two masks, read at one entry.

  The label mask at `(r, s)` compares the label vector broadcast down the columns with the label vector broadcast
  along the rows: it is set exactly when rows `r` and `s` carry the same label.  The diagonal mask compares the row
  coordinate with the column coordinate, both written as 32-bit words; the coordinates are below `8192`, so the
  words agree exactly when the coordinates do.  The positive mask is the label mask with the diagonal removed:
  same label and `r ≠ s`.
-/

noncomputable section

namespace Cert.Triplet.Ref

open Cert.ReferenceIdeal Cert.ReferenceIdeal.Read Idealize.ShloMosaic Idealize.ShloMosaic.ValueIdx

/-- The label mask at `(r, s)` is set exactly when the two rows have the same label. -/
theorem sameLabel_entry (a1 : (⟨S8192, .i32⟩ : BufTy).Contents (Elt Ideal)) (r s : Fin 8192) :
    val_main_v11 (F := Ideal) a1 (ix2 r s) = 1#1 ↔ a1 (ix1 r) = a1 (ix1 s) := by
  have e1 : idx_main_v7 (idx_main_v9 (ix2 r s)) = ix1 r :=
    funext fun a => Fin.ext (by match a with | ⟨0, _⟩ => rfl)
  have e2 : idx_main_v8 (idx_main_v10 (ix2 r s)) = ix1 s :=
    funext fun a => Fin.ext (by match a with | ⟨0, _⟩ => rfl)
  rw [val_main_v11_apply, val_main_v9_apply, val_main_v7_apply, val_main_v10_apply, val_main_v8_apply,
    IntOp.cmpi_eq, e1, e2]

/-- Two coordinates below `8192`, written as 32-bit words, agree exactly when they are equal. -/
theorem ofNat_coord_eq_iff (r s : Fin 8192) : BitVec.ofNat 32 r.val = BitVec.ofNat 32 s.val ↔ r = s := by
  constructor
  · intro h
    have h' := congrArg BitVec.toNat h
    rw [BitVec.toNat_ofNat, BitVec.toNat_ofNat] at h'
    have hr := r.isLt
    have hs := s.isLt
    exact Fin.ext (by omega)
  · intro h; rw [h]

/-- The diagonal mask at `(r, s)` is set exactly when `r = s`. -/
theorem diag_entry (r s : Fin 8192) :
    val_main_v16 (F := Ideal) (ix2 r s) = 1#1 ↔ r = s := by
  rw [val_main_v16_apply, val_main_v15_apply, val_main_v12_apply, val_main_v14_apply, val_main_c_apply,
    val_main_v13_apply, IntOp.cmpi_eq]
  show IntOp.addi (BitVec.ofNat 32 r.val) 0#32 = BitVec.ofNat 32 s.val ↔ r = s
  unfold IntOp.addi
  rw [BitVec.add_zero]
  exact ofNat_coord_eq_iff r s

/-- The positive mask at `(r, s)` is set exactly when the rows have the same label and are different rows. -/
theorem positive_entry (a1 : (⟨S8192, .i32⟩ : BufTy).Contents (Elt Ideal)) (r s : Fin 8192) :
    val_main_v18 (F := Ideal) a1 (ix2 r s) = 1#1 ↔ (a1 (ix1 r) = a1 (ix1 s) ∧ r ≠ s) := by
  rw [val_main_v18_apply, IntOp.andi_eq_one, val_main_v17_apply, IntOp.not_eq_one, sameLabel_entry, diag_entry]

end Cert.Triplet.Ref

end
-- ==== Proof.LibHostExtrema.lean ====
/-
  A host reduction by minimum or maximum, on the extended reals, over any set of axes.

  A one-operand host reduce whose body is the minimum and whose initial value is `+∞` gives, at a result index `j`,
  the infimum of the operand over the indices that drop to `j`; with the maximum and `-∞`, the supremum. Folding `min`
  from `⊤` (resp. `max` from `⊥`) over a finite set is the infimum (supremum) over the set.
-/
import Idealize.ShloMosaic.PureOps.Ideal.Laws

noncomputable section

namespace Cert.LibHostExtrema

open Idealize.ShloMosaic

/-- Folding `min` from `⊤` over a finite set is the infimum over the set. -/
theorem fold_min_top_finset {ι : Type*} (S : Finset ι) (f : ι → EReal) :
    S.fold min ⊤ f = ⨅ i ∈ S, f i := by
  refine eq_of_forall_le_iff fun z => ?_
  rw [Finset.le_fold_min, le_iInf₂_iff]
  exact ⟨fun h => h.2, fun h => ⟨le_top, h⟩⟩

/-- Folding `max` from `⊥` over a finite set is the supremum over the set. -/
theorem fold_max_bot_finset {ι : Type*} (S : Finset ι) (f : ι → EReal) :
    S.fold max ⊥ f = ⨆ i ∈ S, f i := by
  refine eq_of_forall_ge_iff fun z => ?_
  rw [Finset.fold_max_le, iSup₂_le_iff]
  exact ⟨fun h => h.2, fun h => ⟨bot_le, h⟩⟩

/-- A host min-reduce from `+∞`: at `j`, the infimum of the operand over the indices that drop to `j`. -/
theorem hostReduce_min_inf {s t u : Shape} {axes : List (Fin s.rank)} (x : s.Idx → EReal) (init : u.Idx → EReal)
    (h : s.ReducesTo axes t) (hu : 0 < u.numel) (hinit : init (Shape.Idx.first hu) = ⊤) (j : t.Idx) :
    Host.reduce (FloatOps.minimumf (F := Ideal) (φ := .f32)) x init h hu j = ⨅ (i : s.Idx) (_ : h.drop i = j), x i := by
  rw [Host.reduce_eq_fold, hinit]
  show (Finset.univ.filter fun i => h.drop i = j).fold min ⊤ x = _
  rw [fold_min_top_finset]
  refine iInf_congr fun i => ?_
  simp only [Finset.mem_filter, Finset.mem_univ, true_and]

/-- A host max-reduce from `-∞`: at `j`, the supremum of the operand over the indices that drop to `j`. -/
theorem hostReduce_max_sup {s t u : Shape} {axes : List (Fin s.rank)} (x : s.Idx → EReal) (init : u.Idx → EReal)
    (h : s.ReducesTo axes t) (hu : 0 < u.numel) (hinit : init (Shape.Idx.first hu) = ⊥) (j : t.Idx) :
    Host.reduce (FloatOps.maximumf (F := Ideal) (φ := .f32)) x init h hu j = ⨆ (i : s.Idx) (_ : h.drop i = j), x i := by
  rw [Host.reduce_eq_fold, hinit]
  show (Finset.univ.filter fun i => h.drop i = j).fold max ⊥ x = _
  rw [fold_max_bot_finset]
  refine iSup_congr fun i => ?_
  simp only [Finset.mem_filter, Finset.mem_univ, true_and]

end Cert.LibHostExtrema

end
-- ==== Proof.RefReduce.lean ====
import proofs.«169116_j80736795230438_1_alg».proof.Proof.Gen.ReferenceIdeal.Read
import proofs.«169116_j80736795230438_1_alg».proof.Proof.LibHostExtrema
import proofs.«169116_j80736795230438_1_alg».proof.Proof.LibMinReduce
import proofs.«169116_j80736795230438_1_alg».proof.Proof.LibMaxReduce
/-
  The reference's three reductions, read at a row.

  A reduction of an `8192 × 8192` matrix over its second axis sends the entry `(p, q)` to the result index `p`, so
  the entries that drop to the result index `r` are exactly the entries `(r, s)` of row `r`.  The minimum-reduce
  from `+∞` is therefore the infimum of row `r` over all `8192` columns, the maximum-reduce from `-∞` its supremum.
  A sum over the index set of a vector of length `n` is the sum over its one coordinate.
-/

noncomputable section

namespace Cert.Triplet.Ref

open Cert.ReferenceIdeal Cert.ReferenceIdeal.Gen Cert.ReferenceIdeal.Read Idealize.ShloMosaic Idealize.ShloMosaic.ValueIdx

/-- Reducing over the second axis drops the entry `(p, q)` to the result index `p`. -/
theorem drop_entry (h : S8192x8192.ReducesTo [1] S8192) (p q : Fin 8192) : h.drop (ix2 p q) = ix1 p :=
  funext fun b => Fin.ext (by
    match b with
    | ⟨0, _⟩ => exact h.drop_apply_val_of_eq (ix2 p q) 0 0)

/-- The infimum over the entries that drop to row `r` is the infimum of row `r` over its columns. -/
theorem iInf_drop_row (h : S8192x8192.ReducesTo [1] S8192) (y : S8192x8192.Idx → EReal) (r : Fin 8192) :
    (⨅ (i : S8192x8192.Idx) (_ : h.drop i = ix1 r), y i) = ⨅ s : Fin 8192, y (ix2 r s) := by
  apply le_antisymm
  · exact le_iInf fun s => iInf₂_le (ix2 r s) (drop_entry h r s)
  · refine le_iInf₂ fun i hi => ?_
    obtain ⟨p, q, rfl⟩ : ∃ (p q : Fin 8192), i = ix2 p q := ⟨i 0, i 1, eq_ix2 i⟩
    rw [drop_entry] at hi
    have hp : p = r := congrFun hi 0
    subst hp
    exact iInf_le (fun s => y (ix2 p s)) q

/-- The supremum over the entries that drop to row `r` is the supremum of row `r` over its columns. -/
theorem iSup_drop_row (h : S8192x8192.ReducesTo [1] S8192) (y : S8192x8192.Idx → EReal) (r : Fin 8192) :
    (⨆ (i : S8192x8192.Idx) (_ : h.drop i = ix1 r), y i) = ⨆ s : Fin 8192, y (ix2 r s) := by
  apply le_antisymm
  · refine iSup₂_le fun i hi => ?_
    obtain ⟨p, q, rfl⟩ : ∃ (p q : Fin 8192), i = ix2 p q := ⟨i 0, i 1, eq_ix2 i⟩
    rw [drop_entry] at hi
    have hp : p = r := congrFun hi 0
    subst hp
    exact le_iSup (fun s => y (ix2 p s)) q
  · exact iSup_le fun s => le_iSup₂ (f := fun i (_ : h.drop i = ix1 r) => y i) (ix2 r s) (drop_entry h r s)

/-- The minimum-reduce over the second axis from `+∞`, at row `r`: the infimum of the row. -/
theorem min_row (y : S8192x8192.Idx → EReal) (r : Fin 8192) :
    Host.reduce (FloatOps.minimumf (F := Ideal) (φ := .f32)) y (val_main_cst_1 (F := Ideal))
        reducesTo_S8192x8192_S8192_d1 h_S_ (ix1 r)
      = ⨅ s : Fin 8192, y (ix2 r s) := by
  have hinit : val_main_cst_1 (F := Ideal) (Shape.Idx.first h_S_) = ⊤ := by
    rw [val_main_cst_1_apply]; exact Cert.LibMinReduce.ofBits_inf
  rw [Cert.LibHostExtrema.hostReduce_min_inf y _ reducesTo_S8192x8192_S8192_d1 h_S_ hinit (ix1 r)]
  exact iInf_drop_row _ y r

/-- The maximum-reduce over the second axis from `-∞`, at row `r`: the supremum of the row. -/
theorem max_row (y : S8192x8192.Idx → EReal) (r : Fin 8192) :
    Host.reduce (FloatOps.maximumf (F := Ideal) (φ := .f32)) y (val_main_cst_3 (F := Ideal))
        reducesTo_S8192x8192_S8192_d1 h_S_ (ix1 r)
      = ⨆ s : Fin 8192, y (ix2 r s) := by
  have hinit : val_main_cst_3 (F := Ideal) (Shape.Idx.first h_S_) = ⊥ := by
    rw [val_main_cst_3_apply]; exact Cert.LibMaxReduce.ofBits_neg_inf
  rw [Cert.LibHostExtrema.hostReduce_max_sup y _ reducesTo_S8192x8192_S8192_d1 h_S_ hinit (ix1 r)]
  exact iSup_drop_row _ y r

/-- The index set of a vector of length `n` is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Triplet.Ref

end
-- ==== Proof.RefRows.lean ====
import proofs.«169116_j80736795230438_1_alg».proof.Proof.RefSim
import proofs.«169116_j80736795230438_1_alg».proof.Proof.RefMask
import proofs.«169116_j80736795230438_1_alg».proof.Proof.RefReduce
/-
  The reference's two masked matrices and their row extrema.

  Where the positive mask is set the positive-side matrix keeps the similarity, elsewhere it is the similarity
  plus `2`; its row infimum is the row's hardest positive.  Where the label mask is set the negative-side matrix is
  the similarity minus `2`, elsewhere the similarity; its row supremum is the row's hardest negative.  The row's loss
  is then `hardest negative + margin - hardest positive`, with the margin the literal both programs print.
-/

noncomputable section

namespace Cert.Triplet.Ref

open Cert.ReferenceIdeal Cert.ReferenceIdeal.Read Idealize.ShloMosaic Idealize.ShloMosaic.ValueIdx

/-- The positive-side matrix at `(r, s)`: the similarity where `s` is another row with `r`'s label, the similarity
    plus `2` elsewhere. -/
theorem posSide_entry (a0 : (⟨S8192x128, .f32⟩ : BufTy).Contents (Elt Ideal))
    (a1 : (⟨S8192, .i32⟩ : BufTy).Contents (Elt Ideal)) (r s : Fin 8192) :
    val_main_v21 (F := Ideal) a0 a1 (ix2 r s)
      = if a1 (ix1 r) = a1 (ix1 s) ∧ r ≠ s
        then sim (fun r k => val_main_v4 (F := Ideal) a0 (ix2 r k)) r s
        else sim (fun r k => val_main_v4 (F := Ideal) a0 (ix2 r k)) r s + two := by
  rw [val_main_v21_apply, val_main_v20_apply, val_main_v19_apply, val_main_cst_0_apply, sim_entry]
  by_cases h : a1 (ix1 r) = a1 (ix1 s) ∧ r ≠ s
  · rw [if_pos h, (positive_entry a1 r s).2 h, select_one]
  · rw [if_neg h, eq_zero_of_ne_one (mt (positive_entry a1 r s).1 h), select_zero]
    rfl

/-- The negative-side matrix at `(r, s)`: the similarity minus `2` where `s` has `r`'s label, the similarity
    elsewhere. -/
theorem negSide_entry (a0 : (⟨S8192x128, .f32⟩ : BufTy).Contents (Elt Ideal))
    (a1 : (⟨S8192, .i32⟩ : BufTy).Contents (Elt Ideal)) (r s : Fin 8192) :
    val_main_v25 (F := Ideal) a0 a1 (ix2 r s)
      = if a1 (ix1 r) = a1 (ix1 s)
        then sim (fun r k => val_main_v4 (F := Ideal) a0 (ix2 r k)) r s - two
        else sim (fun r k => val_main_v4 (F := Ideal) a0 (ix2 r k)) r s := by
  rw [val_main_v25_apply, val_main_v24_apply, val_main_v23_apply, val_main_cst_2_apply, sim_entry]
  by_cases h : a1 (ix1 r) = a1 (ix1 s)
  · rw [if_pos h, (sameLabel_entry a1 r s).2 h, select_one]
    rfl
  · rw [if_neg h, eq_zero_of_ne_one (mt (sameLabel_entry a1 r s).1 h), select_zero]

/-- The minimum-reduce of the positive-side matrix at row `r` is the row's hardest positive. -/
theorem hardPos_row (a0 : (⟨S8192x128, .f32⟩ : BufTy).Contents (Elt Ideal))
    (a1 : (⟨S8192, .i32⟩ : BufTy).Contents (Elt Ideal)) (r : Fin 8192) :
    val_main_v22 (F := Ideal) a0 a1 (ix1 r)
      = hardPos (fun r k => val_main_v4 (F := Ideal) a0 (ix2 r k)) (fun r => a1 (ix1 r)) r := by
  unfold val_main_v22
  refine (min_row (val_main_v21 (F := Ideal) a0 a1) r).trans ?_
  unfold hardPos
  exact iInf_congr fun s => posSide_entry a0 a1 r s

/-- The maximum-reduce of the negative-side matrix at row `r` is the row's hardest negative. -/
theorem hardNeg_row (a0 : (⟨S8192x128, .f32⟩ : BufTy).Contents (Elt Ideal))
    (a1 : (⟨S8192, .i32⟩ : BufTy).Contents (Elt Ideal)) (r : Fin 8192) :
    val_main_v26 (F := Ideal) a0 a1 (ix1 r)
      = hardNeg (fun r k => val_main_v4 (F := Ideal) a0 (ix2 r k)) (fun r => a1 (ix1 r)) r := by
  unfold val_main_v26
  refine (max_row (val_main_v25 (F := Ideal) a0 a1) r).trans ?_
  unfold hardNeg
  exact iSup_congr fun s => negSide_entry a0 a1 r s

/-- The reference's per-row vector at `r` is the row's loss. -/
theorem rowLoss_row (a0 : (⟨S8192x128, .f32⟩ : BufTy).Contents (Elt Ideal))
    (a1 : (⟨S8192, .i32⟩ : BufTy).Contents (Elt Ideal)) (r : Fin 8192) :
    val_main_v29 (F := Ideal) a0 a1 (ix1 r)
      = rowLoss (fun r k => val_main_v4 (F := Ideal) a0 (ix2 r k)) (fun r => a1 (ix1 r)) r := by
  rw [val_main_v29_apply, val_main_v28_apply, val_main_v27_apply, val_main_cst_4_apply, hardPos_row, hardNeg_row]
  rfl

end Cert.Triplet.Ref

end
-- ==== Proof.RefSide.lean ====
import proofs.«169116_j80736795230438_1_alg».proof.Proof.Gen.ReferenceIdeal.Read
import proofs.«169116_j80736795230438_1_alg».proof.Proof.Spec
import proofs.«169116_j80736795230438_1_alg».proof.Proof.RefRows
/-
  The reference program's result is the specification.

  The last operation sums the per-row vector from the zero literal.  The zero literal is the extended real `0`, the
  sum over the vector's index set is the sum over the `8192` rows, and the vector's entry at row `r` is that row's
  loss: the result is the sum of the rows' losses, as a function of the normalised table (kept as it stands, one
  entry per row and column) and of the label vector.
-/

noncomputable section

namespace Cert.Triplet.Ref

open Cert.ReferenceIdeal Cert.ReferenceIdeal.Read Idealize.ShloMosaic Idealize.ShloMosaic.ValueIdx

/-- The reference's scalar result is the sum over the rows of `hardest negative + margin - hardest positive`,
    over the normalised table and the labels. -/
theorem result_eq
    (a0 : (⟨Cert.ReferenceIdeal.S8192x128, .f32⟩ : BufTy).Contents (Elt Ideal))
    (a1 : (⟨Cert.ReferenceIdeal.S8192, .i32⟩ : BufTy).Contents (Elt Ideal)) (i : Cert.ReferenceIdeal.S_.Idx) :
    Cert.ReferenceIdeal.Read.val_main_v30 (F := Ideal) a0 a1 i
      = Cert.Triplet.total (fun r k => Cert.ReferenceIdeal.Read.val_main_v4 (F := Ideal) a0 (ValueIdx.ix2 r k))
                           (fun r => a1 (ValueIdx.ix1 r)) := by
  rw [val_main_v30_apply, val_main_cst_5_apply, Ideal.ofBits_def, Ideal.ofBits_zero_f32, zero_add, sum_idx1]
  unfold total
  exact Finset.sum_congr rfl fun r _ => rowLoss_row a0 a1 r

end Cert.Triplet.Ref

end
-- ==== Proof.lean ====
/-
  The proof of the claim.

  Both programs normalise the rows of the input table (divide each row by its norm plus epsilon), form all pairwise
  similarities, and for every row take the hardest positive (least similarity to another row of the same label,
  the other entries pushed up by 2), the hardest negative (greatest similarity to a row of another label, same-label
  entries pushed down by 2), and add `hardest negative + margin - hardest positive` over the rows.  The reference does
  this on the whole 8192 x 8192 similarity matrix.  The kernel walks it in 1024 x 1024 tiles, row block by row block,
  keeping a running minimum and a running maximum per row across the tiles of a row block, and rounds the table to
  bf16 first — the identity at exact values.  On the extended reals the infimum (supremum) over adjacent column ranges
  is the minimum (maximum) of the ranges' infima (suprema), and a sum in a commutative monoid does not depend on
  being taken over a column or a vector, so the two results are one extended real; no finiteness of the input is
  needed.  The frames: each kernel program runs by the region's launch from the body's obligation at every grid
  point (three cases by column block), and the reference by its run; the idealization rewrote nothing.
-/
import proofs.«169116_j80736795230438_1_alg».proof.Defs
import proofs.«169116_j80736795230438_1_alg».proof.Proof.Gen.Kernel
import proofs.«169116_j80736795230438_1_alg».proof.Proof.Gen.KernelIdeal
import proofs.«169116_j80736795230438_1_alg».proof.Proof.Gen.ReferenceIdeal
import proofs.«169116_j80736795230438_1_alg».proof.Proof.Gen.Pre_finite_inputs
import proofs.«169116_j80736795230438_1_alg».proof.Proof.Gen.ReferenceIdeal.Run
import proofs.«169116_j80736795230438_1_alg».proof.Proof.KernelFrame
import proofs.«169116_j80736795230438_1_alg».proof.Proof.KernelLaunch
import proofs.«169116_j80736795230438_1_alg».proof.Proof.KernelIdealFinal
import proofs.«169116_j80736795230438_1_alg».proof.Proof.KernelIdealTable
import proofs.«169116_j80736795230438_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ =>
  (θ_run Cert.Kernel.defs _ _).mono (fun _ h c => (h c).2)
    (Cert.Kernel.Hand.run_of_body m ρ (Cert.Kernel.Hand.dats m) (Cert.Kernel.Hand.A_eq m) (Cert.Kernel.Hand.q_eq m)
      (fun _ _ => rfl) (fun c => (Cert.Kernel.Hand.body_obligation m c).loose) (Cert.Kernel.Hand.hin m) (Cert.Kernel.Hand.hout m))

/-- So does the idealized kernel program. -/
theorem frame_ki : Cert.frame_KernelIdeal := fun m ρ _ =>
  (θ_run Cert.KernelIdeal.defs _ _).mono (fun _ h c => (h c).2) (Cert.KernelIdeal.Hand.run_value m ρ)

/-- And the idealized reference, by its run. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the specification's total of the
    normalised table and the labels. -/
theorem algebraic : Cert.algebraic_KernelIdeal_ReferenceIdeal := by
  intro m ρ m' ρ' _ hagree
  refine ⟨fun c => fun _ => Cert.Triplet.total (Cert.KernelIdeal.Hand.xk m c) (Cert.KernelIdeal.Hand.labk m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2]
  funext i
  rw [Cert.Triplet.Ref.result_eq]
  refine congrArg₂ Cert.Triplet.total ?_ rfl
  funext r k
  exact (congrFun (Cert.KernelIdeal.Hand.table_eq m c) (ValueIdx.ix2 r k)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
